-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x90 : Shape := ⟨2, ![131072, 90]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S256x257 : Shape := ⟨2, ![256, 257]⟩
abbrev S257 : Shape := ⟨1, ![257]⟩
abbrev S283x256 : Shape := ⟨2, ![283, 256]⟩
abbrev S256x3 : Shape := ⟨2, ![256, 3]⟩
abbrev S3 : Shape := ⟨1, ![3]⟩
abbrev S_ : Shape := ⟨0, ![]⟩

class Facts : Prop where
  bcast_S_S131072x90 : S_.BroadcastsInDim S131072x90 (![] : Fin 0 → Fin S131072x90.rank)
  reducesTo_S131072x90_S_d0_1 : S131072x90.ReducesTo [0, 1] S_
  h_S_ : 0 < S_.numel
  bcast_S_S63x256 : S_.BroadcastsInDim S63x256 (![] : Fin 0 → Fin S63x256.rank)
  reducesTo_S63x256_S_d0_1 : S63x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S319x256 : S_.BroadcastsInDim S319x256 (![] : Fin 0 → Fin S319x256.rank)
  reducesTo_S319x256_S_d0_1 : S319x256.ReducesTo [0, 1] S_
  bcast_S_S256x257 : S_.BroadcastsInDim S256x257 (![] : Fin 0 → Fin S256x257.rank)
  reducesTo_S256x257_S_d0_1 : S256x257.ReducesTo [0, 1] S_
  bcast_S_S257 : S_.BroadcastsInDim S257 (![] : Fin 0 → Fin S257.rank)
  reducesTo_S257_S_d0 : S257.ReducesTo [0] S_
  bcast_S_S283x256 : S_.BroadcastsInDim S283x256 (![] : Fin 0 → Fin S283x256.rank)
  reducesTo_S283x256_S_d0_1 : S283x256.ReducesTo [0, 1] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_arg21 : FVec F S256x3 .f32) (main_arg22 : FVec F S3 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x3 .f32 := Host.absf main_arg21
  let main_cst_40 : FVec F S_ .f32 := constant S_ .f32 0x7F800000#32
  let main_v105 : FVec F S256x3 .f32 := broadcastInDim S256x3 ![] bcast_S_S256x3 main_cst_40
  let main_v106 : IVec S256x3 1 := cmpf .olt main_v104 main_v105
  let main_c_41 : IVec S_ 1 := constantI S_ 1 1#1
  let main_v107 : IVec S_ 1 := (fun x v => Host.reduce IntOp.andi x v reducesTo_S256x3_S_d0_1 h_S_) main_v106 main_c_41
  let main_v108 : IVec S_ 1 := andi main_v103 main_v107
  let main_v109 : FVec F S3 .f32 := Host.absf main_arg22
  let main_cst_42 : FVec F S_ .f32 := constant S_ .f32 0x7F800000#32
  let main_v110 : FVec F S3 .f32 := broadcastInDim S3 ![] bcast_S_S3 main_cst_42
  let main_v111 : IVec S3 1 := cmpf .olt main_v109 main_v110
  let main_c_43 : IVec S_ 1 := constantI S_ 1 1#1
  let main_v112 : IVec S_ 1 := (fun x v => Host.reduce IntOp.andi x v reducesTo_S3_S_d0 h_S_) main_v111 main_c_43
  let main_v113 : IVec S_ 1 := andi main_v108 main_v112
  main_v113

def fn_part5 {F : FTy → Type} [FloatOps F] (main_arg18 : FVec F S257 .f32) (main_arg19 : FVec F S283x256 .f32) (main_arg20 : FVec F S256 .f32) (main_arg21 : FVec F S256x3 .f32) (main_arg22 : FVec F S3 .f32) (main_v83 : IVec S_ 1) (main_v84 : FVec F S256x257 .f32) (main_cst_32 : FVec F S_ .f32) : IVec S_ 1 :=
  let main_v85 : FVec F S256x257 .f32 := broadcastInDim S256x257 ![] bcast_S_S256x257 main_cst_32
  let main_v86 : IVec S256x257 1 := cmpf .olt main_v84 main_v85
  let main_c_33 : IVec S_ 1 := constantI S_ 1 1#1
  let main_v87 : IVec S_ 1 := (fun x v => Host.reduce IntOp.andi x v reducesTo_S256x257_S_d0_1 h_S_) main_v86 main_c_33
  let main_v88 : IVec S_ 1 := andi main_v83 main_v87
  let main_v89 : FVec F S257 .f32 := Host.absf main_arg18
  let main_cst_34 : FVec F S_ .f32 := constant S_ .f32 0x7F800000#32
  let main_v90 : FVec F S257 .f32 := broadcastInDim S257 ![] bcast_S_S257 main_cst_34
  let main_v91 : IVec S257 1 := cmpf .olt main_v89 main_v90
  let main_c_35 : IVec S_ 1 := constantI S_ 1 1#1
  let main_v92 : IVec S_ 1 := (fun x v => Host.reduce IntOp.andi x v reducesTo_S257_S_d0 h_S_) main_v91 main_c_35
  let main_v93 : IVec S_ 1 := andi main_v88 main_v92
  let main_v94 : FVec F S283x256 .f32 := Host.absf main_arg19
  let main_cst_36 : FVec F S_ .f32 := constant S_ .f32 0x7F800000#32
  let main_v95 : FVec F S283x256 .f32 := broadcastInDim S283x256 ![] bcast_S_S283x256 main_cst_36
  let main_v96 : IVec S283x256 1 := cmpf .olt main_v94 main_v95
  let main_c_37 : IVec S_ 1 := constantI S_ 1 1#1
  let main_v97 : IVec S_ 1 := (fun x v => Host.reduce IntOp.andi x v reducesTo_S283x256_S_d0_1 h_S_) main_v96 main_c_37
  let main_v98 : IVec S_ 1 := andi main_v93 main_v97
  let main_v99 : FVec F S256 .f32 := Host.absf main_arg20
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S256 .f32) (main_arg15 : FVec F S256x256 .f32) (main_arg16 : FVec F S256 .f32) (main_arg17 : FVec F S256x257 .f32) (main_arg18 : FVec F S257 .f32) (main_arg19 : FVec F S283x256 .f32) (main_arg20 : FVec F S256 .f32) (main_arg21 : FVec F S256x3 .f32) (main_arg22 : FVec F S3 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x257 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x257 .f32) (main_arg18 : FVec F S257 .f32) (main_arg19 : FVec F S283x256 .f32) (main_arg20 : FVec F S256 .f32) (main_arg21 : FVec F S256x3 .f32) (main_arg22 : FVec F S3 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S256x256 .f32) (main_arg8 : FVec F S256 .f32) (main_arg9 : FVec F S319x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x257 .f32) (main_arg18 : FVec F S257 .f32) (main_arg19 : FVec F S283x256 .f32) (main_arg20 : FVec F S256 .f32) (main_arg21 : FVec F S256x3 .f32) (main_arg22 : FVec F S3 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S319x256 .f32 := Host.absf main_arg9
  let main_cst_16 : FVec F S_ .f32 := constant S_ .f32 0x7F800000#32
  let main_v45 : FVec F S319x256 .f32 := broadcastInDim S319x256 ![] bcast_S_S319x256 main_cst_16
  let main_v46 : IVec S319x256 1 := cmpf .olt main_v44 main_v45
  let main_c_17 : IVec S_ 1 := constantI S_ 1 1#1
  let main_v47 : IVec S_ 1 := (fun x v => Host.reduce IntOp.andi x v reducesTo_S319x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S319x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x257 .f32) (main_arg18 : FVec F S257 .f32) (main_arg19 : FVec F S283x256 .f32) (main_arg20 : FVec F S256 .f32) (main_arg21 : FVec F S256x3 .f32) (main_arg22 : FVec F S3 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S131072x90 .f32) (main_arg1 : FVec F S63x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S319x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x257 .f32) (main_arg18 : FVec F S257 .f32) (main_arg19 : FVec F S283x256 .f32) (main_arg20 : FVec F S256 .f32) (main_arg21 : FVec F S256x3 .f32) (main_arg22 : FVec F S3 .f32) : IVec S_ 1 :=
  let main_v0 : FVec F S131072x90 .f32 := Host.absf main_arg0
  let main_cst : FVec F S_ .f32 := constant S_ .f32 0x7F800000#32
  let main_v1 : FVec F S131072x90 .f32 := broadcastInDim S131072x90 ![] bcast_S_S131072x90 main_cst
  let main_v2 : IVec S131072x90 1 := cmpf .olt main_v0 main_v1
  let main_c : IVec S_ 1 := constantI S_ 1 1#1
  let main_v3 : IVec S_ 1 := (fun x v => Host.reduce IntOp.andi x v reducesTo_S131072x90_S_d0_1 h_S_) main_v2 main_c
  let main_v4 : FVec F S63x256 .f32 := Host.absf main_arg1
  let main_cst_0 : FVec F S_ .f32 := constant S_ .f32 0x7F800000#32
  let main_v5 : FVec F S63x256 .f32 := broadcastInDim S63x256 ![] bcast_S_S63x256 main_cst_0
  let main_v6 : IVec S63x256 1 := cmpf .olt main_v4 main_v5
  let main_c_1 : IVec S_ 1 := constantI S_ 1 1#1
  let main_v7 : IVec S_ 1 := (fun x v => Host.reduce IntOp.andi x v reducesTo_S63x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S131072x90 : Shape := ⟨2, ![131072, 90]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S256x257 : Shape := ⟨2, ![256, 257]⟩
abbrev S257 : Shape := ⟨1, ![257]⟩
abbrev S283x256 : Shape := ⟨2, ![283, 256]⟩
abbrev S256x3 : Shape := ⟨2, ![256, 3]⟩
abbrev S3 : Shape := ⟨1, ![3]⟩
abbrev S256x1 : Shape := ⟨2, ![256, 1]⟩
abbrev S1 : Shape := ⟨1, ![1]⟩
abbrev S27x256 : Shape := ⟨2, ![27, 256]⟩
abbrev S131072x4 : Shape := ⟨2, ![131072, 4]⟩
abbrev S2048x90 : Shape := ⟨2, ![2048, 90]⟩
abbrev S2048x4 : Shape := ⟨2, ![2048, 4]⟩
abbrev S2048x63 : Shape := ⟨2, ![2048, 63]⟩
abbrev S2048x27 : Shape := ⟨2, ![2048, 27]⟩
abbrev S2048x256 : Shape := ⟨2, ![2048, 256]⟩
abbrev S1x256 : Shape := ⟨2, ![1, 256]⟩
abbrev S2048x1 : Shape := ⟨2, ![2048, 1]⟩
abbrev S1x1 : Shape := ⟨2, ![1, 1]⟩
abbrev S2048x3 : Shape := ⟨2, ![2048, 3]⟩
abbrev S1x3 : Shape := ⟨2, ![1, 3]⟩

abbrev nBuf : Space → Nat
  | .hbm => 46
  | .vmem => 30
  | .smem => 0
  | _ => 0

abbrev bufTy : (tb : Table) → Fin (tcTables nBuf tb) → BufTy
  | .hbm, ⟨0, _⟩ => ⟨S131072x90, .f32⟩
  | .hbm, ⟨1, _⟩ => ⟨S63x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S319x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x257, .f32⟩
  | .hbm, ⟨18, _⟩ => ⟨S257, .f32⟩
  | .hbm, ⟨19, _⟩ => ⟨S283x256, .f32⟩
  | .hbm, ⟨20, _⟩ => ⟨S256, .f32⟩
  | .hbm, ⟨21, _⟩ => ⟨S256x3, .f32⟩
  | .hbm, ⟨22, _⟩ => ⟨S3, .f32⟩
  | .hbm, ⟨23, _⟩ => ⟨S63x256, .bf16⟩
  | .hbm, ⟨24, _⟩ => ⟨S256x256, .bf16⟩
  | .hbm, ⟨25, _⟩ => ⟨S256x256, .bf16⟩
  | .hbm, ⟨26, _⟩ => ⟨S256x256, .bf16⟩
  | .hbm, ⟨27, _⟩ => ⟨S63x256, .f32⟩
  | .hbm, ⟨28, _⟩ => ⟨S63x256, .bf16⟩
  | .hbm, ⟨29, _⟩ => ⟨S256x256, .f32⟩
  | .hbm, ⟨30, _⟩ => ⟨S256x256, .bf16⟩
  | .hbm, ⟨31, _⟩ => ⟨S256x256, .bf16⟩
  | .hbm, ⟨32, _⟩ => ⟨S256x256, .bf16⟩
  | .hbm, ⟨33, _⟩ => ⟨S256x256, .bf16⟩
  | .hbm, ⟨34, _⟩ => ⟨S256x256, .f32⟩
  | .hbm, ⟨35, _⟩ => ⟨S256x256, .bf16⟩
  | .hbm, ⟨36, _⟩ => ⟨S256x1, .f32⟩
  | .hbm, ⟨37, _⟩ => ⟨S256x1, .bf16⟩
  | .hbm, ⟨38, _⟩ => ⟨S256, .f32⟩
  | .hbm, ⟨39, _⟩ => ⟨S1, .f32⟩
  | .hbm, ⟨40, _⟩ => ⟨S27x256, .f32⟩
  | .hbm, ⟨41, _⟩ => ⟨S27x256, .bf16⟩
  | .hbm, ⟨42, _⟩ => ⟨S256x256, .f32⟩
  | .hbm, ⟨43, _⟩ => ⟨S256x256, .bf16⟩
  | .hbm, ⟨44, _⟩ => ⟨S256x3, .bf16⟩
  | .hbm, ⟨45, _⟩ => ⟨S131072x4, .f32⟩
  | .local _ .vmem, ⟨0, _⟩ => ⟨S2048x90, .f32⟩
  | .local _ .vmem, ⟨1, _⟩ => ⟨S2048x90, .f32⟩
  | .local _ .vmem, ⟨2, _⟩ => ⟨S63x256, .bf16⟩
  | .local _ .vmem, ⟨3, _⟩ => ⟨S256, .f32⟩
  | .local _ .vmem, ⟨4, _⟩ => ⟨S256x256, .bf16⟩
  | .local _ .vmem, ⟨5, _⟩ => ⟨S256, .f32⟩
  | .local _ .vmem, ⟨6, _⟩ => ⟨S256x256, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S63x256, .bf16⟩
  | .local _ .vmem, ⟨11, _⟩ => ⟨S256x256, .bf16⟩
  | .local _ .vmem, ⟨12, _⟩ => ⟨S256, .f32⟩
  | .local _ .vmem, ⟨13, _⟩ => ⟨S256x256, .bf16⟩
  | .local _ .vmem, ⟨14, _⟩ => ⟨S256, .f32⟩
  | .local _ .vmem, ⟨15, _⟩ => ⟨S256x256, .bf16⟩
  | .local _ .vmem, ⟨16, _⟩ => ⟨S256, .f32⟩
  | .local _ .vmem, ⟨17, _⟩ => ⟨S256x256, .bf16⟩
  | .local _ .vmem, ⟨18, _⟩ => ⟨S256, .f32⟩
  | .local _ .vmem, ⟨19, _⟩ => ⟨S256x256, .bf16⟩
  | .local _ .vmem, ⟨20, _⟩ => ⟨S256x1, .bf16⟩
  | .local _ .vmem, ⟨21, _⟩ => ⟨S256, .f32⟩
  | .local _ .vmem, ⟨22, _⟩ => ⟨S1, .f32⟩
  | .local _ .vmem, ⟨23, _⟩ => ⟨S27x256, .bf16⟩
  | .local _ .vmem, ⟨24, _⟩ => ⟨S256x256, .bf16⟩
  | .local _ .vmem, ⟨25, _⟩ => ⟨S256, .f32⟩
  | .local _ .vmem, ⟨26, _⟩ => ⟨S256x3, .bf16⟩
  | .local _ .vmem, ⟨27, _⟩ => ⟨S3, .f32⟩
  | .local _ .vmem, ⟨28, _⟩ => ⟨S2048x4, .f32⟩
  | .local _ .vmem, ⟨29, _⟩ => ⟨S2048x4, .f32⟩
  | _, _ => ⟨S131072x90, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg27_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem27_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x90 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S63x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S63x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x1 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S27x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x256 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S256x3 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S3 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S2048x4 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

class Facts₀ : Prop where
  bitsLt_bf16_f32 : FTy.bits .bf16 < FTy.bits .f32
  slices_S319x256_S63x256_0_0 : S319x256.Slices ![0, 0] S63x256
  slices_S319x256_S256x256_63_0 : S319x256.Slices ![63, 0] S256x256
  slices_S256x257_S256x256_0_1 : S256x257.Slices ![0, 1] S256x256
  slices_S256x257_S256x1_0_0 : S256x257.Slices ![0, 0] S256x1
  slices_S257_S256_1 : S257.Slices ![1] S256
  slices_S257_S1_0 : S257.Slices ![0] S1
  slices_S283x256_S27x256_0_0 : S283x256.Slices ![0, 0] S27x256
  slices_S283x256_S256x256_27_0 : S283x256.Slices ![27, 0] S256x256
  inb_S2048x90_S2048x90_0_0 : ∀ a, (![0, 0] : Fin 2 → Nat) a + S2048x90.size a ≤ S2048x90.size a
  h_S2048x90 : 0 < S2048x90.numel
  slices_S2048x90_o0_0_S2048x63 : S2048x90.Slices ![0, 0] S2048x63
  slices_S2048x90_o0_63_S2048x27 : S2048x90.Slices ![0, 63] S2048x27
  inb_S63x256_S63x256_0_0 : ∀ a, (![0, 0] : Fin 2 → Nat) a + S63x256.size a ≤ S63x256.size a
  h_S63x256 : 0 < S63x256.numel
  shapeCasts_S63x256_S63x256 : S63x256.ShapeCasts S63x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256_S256 : S256.ShapeCasts S256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1 : S1.ShapeCasts S1
  shapeCasts_S1_S1x1 : S1.ShapeCasts S1x1
  broadcasts_S1x1_S2048x1 : S1x1.Broadcasts S2048x1
  inb_S27x256_S27x256_0_0 : ∀ a, (![0, 0] : Fin 2 → Nat) a + S27x256.size a ≤ S27x256.size a
  h_S27x256 : 0 < S27x256.numel
  shapeCasts_S27x256_S27x256 : S27x256.ShapeCasts S27x256
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S3_S3_0 : ∀ a, (![0] : Fin 1 → Nat) a + S3.size a ≤ S3.size a
  h_S3 : 0 < S3.numel
  shapeCasts_S3_S1x3 : S3.ShapeCasts S1x3
  broadcasts_S1x3_S2048x3 : S1x3.Broadcasts S2048x3
  concatenates_S2048x3_S2048x1_S2048x4_d1 : Shape.Concatenates [S2048x3, S2048x1] S2048x4 1
  inb_S2048x4_S2048x4_0_0 : ∀ a, (![0, 0] : Fin 2 → Nat) a + S2048x4.size a ≤ S2048x4.size a
  h_S2048x4 : 0 < S2048x4.numel
  dot_S2048x63_S63x256_S2048x256_1_0_0_1_n_n_wf : DotDims.WF S2048x63 S63x256 S2048x256 [1] [0] [0] [1] [] []
  dot_S2048x256_S256x256_S2048x256_1_0_0_1_n_n_wf : DotDims.WF S2048x256 S256x256 S2048x256 [1] [0] [0] [1] [] []
  dot_S2048x256_S256x1_S2048x1_1_0_0_1_n_n_wf : DotDims.WF S2048x256 S256x1 S2048x1 [1] [0] [0] [1] [] []
  dot_S2048x27_S27x256_S2048x256_1_0_0_1_n_n_wf : DotDims.WF S2048x27 S27x256 S2048x256 [1] [0] [0] [1] [] []
  dot_S2048x256_S256x3_S2048x3_1_0_0_1_n_n_wf : DotDims.WF S2048x256 S256x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x90.size a ≤ S131072x90.size a
  hwx0_0 : ∀ i : grid0.Coords, EltTy.bits .f32 = 32 ∨ (Rect.block (s := S131072x90) S2048x90.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S63x256.size a ≤ S63x256.size a
  hwx0_1 : ∀ i : grid0.Coords, EltTy.bits .bf16 = 32 ∨ (Rect.block (s := S63x256) S63x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S63x256.size a ≤ S63x256.size a
  hwx0_9 : ∀ i : grid0.Coords, EltTy.bits .bf16 = 32 ∨ (Rect.block (s := S63x256) S63x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .bf16 = 32 ∨ (Rect.block (s := S256x256) S256x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x256.size a ≤ S256x256.size a
  hwx0_14 : ∀ i : grid0.Coords, EltTy.bits .bf16 = 32 ∨ (Rect.block (s := S256x256) S256x256.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x256.size a ≤ S256x256.size a
  hwx0_16 : ∀ i : grid0.Coords, EltTy.bits .bf16 = 32 ∨ (Rect.block (s := S256x256) S256x256.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256.size a ≤ S256.size a
  hwx0_17 : ∀ i : grid0.Coords, EltTy.bits .f32 = 32 ∨ (Rect.block (s := S256) S256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x256.size a ≤ S256x256.size a
  hwx0_18 : ∀ i : grid0.Coords, EltTy.bits .bf16 = 32 ∨ (Rect.block (s := S256x256) S256x256.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x1.size a ≤ S256x1.size a
  hwx0_19 : ∀ i : grid0.Coords, EltTy.bits .bf16 = 32 ∨ (Rect.block (s := S256x1) S256x1.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256.size a ≤ S256.size a
  hwx0_20 : ∀ i : grid0.Coords, EltTy.bits .f32 = 32 ∨ (Rect.block (s := S256) S256.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1.size a ≤ S1.size a
  hwx0_21 : ∀ i : grid0.Coords, EltTy.bits .f32 = 32 ∨ (Rect.block (s := S1) S1.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S27x256.size a ≤ S27x256.size a
  hwx0_22 : ∀ i : grid0.Coords, EltTy.bits .bf16 = 32 ∨ (Rect.block (s := S27x256) S27x256.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S256x256.size a ≤ S256x256.size a
  hwx0_23 : ∀ i : grid0.Coords, EltTy.bits .bf16 = 32 ∨ (Rect.block (s := S256x256) S256x256.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S256.size a ≤ S256.size a
  hwx0_24 : ∀ i : grid0.Coords, EltTy.bits .f32 = 32 ∨ (Rect.block (s := S256) S256.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S256x3.size a ≤ S256x3.size a
  hwx0_25 : ∀ i : grid0.Coords, EltTy.bits .bf16 = 32 ∨ (Rect.block (s := S256x3) S256x3.size (cc0_transform_25 i) (hinb0_25 i)).WholeWords (EltTy.packing .bf16)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S3.size a ≤ S3.size a
  hwx0_26 : ∀ i : grid0.Coords, EltTy.bits .f32 = 32 ∨ (Rect.block (s := S3) S3.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S2048x4.size a ≤ S131072x4.size a
  hwx0_27 : ∀ i : grid0.Coords, EltTy.bits .f32 = 32 ∨ (Rect.block (s := S131072x4) S2048x4.size (cc0_transform_27 i) (hinb0_27 i)).WholeWords (EltTy.packing .f32)

variable [Facts₀]

def dot_S2048x63_S63x256_S2048x256_1_0_0_1_n_n : DotDims S2048x63 S63x256 S2048x256 where
  lhsContracting := [1]
  rhsContracting := [0]
  lhsNonContracting := [0]
  rhsNonContracting := [1]
  lhsBatch := []
  rhsBatch := []
  wf := dot_S2048x63_S63x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def dot_S2048x27_S27x256_S2048x256_1_0_0_1_n_n : DotDims S2048x27 S27x256 S2048x256 where
  lhsContracting := [1]
  rhsContracting := [0]
  lhsNonContracting := [0]
  rhsNonContracting := [1]
  lhsBatch := []
  rhsBatch := []
  wf := dot_S2048x27_S27x256_S2048x256_1_0_0_1_n_n_wf
def dot_S2048x256_S256x3_S2048x3_1_0_0_1_n_n : DotDims S2048x256 S256x3 S2048x3 where
  lhsContracting := [1]
  rhsContracting := [0]
  lhsNonContracting := [0]
  rhsNonContracting := [1]
  lhsBatch := []
  rhsBatch := []
  wf := dot_S2048x256_S256x3_S2048x3_1_0_0_1_n_n_wf

abbrev win0_0 : Pipeline.Window sig grid0 :=
  Pipeline.Window.ofSpec (Memref.whole main_arg0) S2048x90.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S63x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S63x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S256x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v10) S256x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v12) S256x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v14) S256x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v15) S256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v16) S1.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v18) S27x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v20) S256x256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg20) S256.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v21) S256x3.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg22) S3.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v22) S2048x4.size cc0_transform_27 reads0_27 true false 2 stage0_27 sem0_27
    hrank0 hreads0_27 hinb0_27 nbuf0_27 (Memref.isWhole_whole _) hwx0_27 hstage0_27

abbrev win0 : Fin 28 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | ⟨_ + 28, h⟩ => absurd h (Nat.not_lt.2 (Nat.le_add_left _ _))
abbrev spec0 : Fin 28 → Pipeline.WinSpec sig grid0.rank := fun w => (win0 w).toWinSpec

class Facts : Prop extends Facts₀ where

variable [Facts]
-- ==== ReferenceIdeal.lean ====
abbrev S131072x90 : Shape := ⟨2, ![131072, 90]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S256x257 : Shape := ⟨2, ![256, 257]⟩
abbrev S257 : Shape := ⟨1, ![257]⟩
abbrev S283x256 : Shape := ⟨2, ![283, 256]⟩
abbrev S256x3 : Shape := ⟨2, ![256, 3]⟩
abbrev S3 : Shape := ⟨1, ![3]⟩
abbrev S131072x63 : Shape := ⟨2, ![131072, 63]⟩
abbrev S131072x27 : Shape := ⟨2, ![131072, 27]⟩
abbrev S131072x256 : Shape := ⟨2, ![131072, 256]⟩
abbrev S1x256 : Shape := ⟨2, ![1, 256]⟩
abbrev S_ : Shape := ⟨0, ![]⟩
abbrev S131072x319 : Shape := ⟨2, ![131072, 319]⟩
abbrev S131072x257 : Shape := ⟨2, ![131072, 257]⟩
abbrev S1x257 : Shape := ⟨2, ![1, 257]⟩
abbrev S131072x1 : Shape := ⟨2, ![131072, 1]⟩
abbrev S131072x283 : Shape := ⟨2, ![131072, 283]⟩
abbrev S131072x3 : Shape := ⟨2, ![131072, 3]⟩
abbrev S1x3 : Shape := ⟨2, ![1, 3]⟩
abbrev S131072x4 : Shape := ⟨2, ![131072, 4]⟩

abbrev nBuf : Space → Nat
  | .hbm => 101
  | .vmem => 0
  | .smem => 0
  | _ => 0

abbrev bufTy : (tb : Table) → Fin (tcTables nBuf tb) → BufTy
  | .hbm, ⟨0, _⟩ => ⟨S131072x90, .f32⟩
  | .hbm, ⟨1, _⟩ => ⟨S63x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S319x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x257, .f32⟩
  | .hbm, ⟨18, _⟩ => ⟨S257, .f32⟩
  | .hbm, ⟨19, _⟩ => ⟨S283x256, .f32⟩
  | .hbm, ⟨20, _⟩ => ⟨S256, .f32⟩
  | .hbm, ⟨21, _⟩ => ⟨S256x3, .f32⟩
  | .hbm, ⟨22, _⟩ => ⟨S3, .f32⟩
  | .hbm, ⟨23, _⟩ => ⟨S131072x63, .f32⟩
  | .hbm, ⟨24, _⟩ => ⟨S131072x27, .f32⟩
  | .hbm, ⟨25, _⟩ => ⟨S131072x256, .f32⟩
  | .hbm, ⟨26, _⟩ => ⟨S1x256, .f32⟩
  | .hbm, ⟨27, _⟩ => ⟨S131072x256, .f32⟩
  | .hbm, ⟨28, _⟩ => ⟨S131072x256, .f32⟩
  | .hbm, ⟨29, _⟩ => ⟨S_, .f32⟩
  | .hbm, ⟨30, _⟩ => ⟨S131072x256, .f32⟩
  | .hbm, ⟨31, _⟩ => ⟨S131072x256, .f32⟩
  | .hbm, ⟨32, _⟩ => ⟨S131072x256, .f32⟩
  | .hbm, ⟨33, _⟩ => ⟨S1x256, .f32⟩
  | .hbm, ⟨34, _⟩ => ⟨S131072x256, .f32⟩
  | .hbm, ⟨35, _⟩ => ⟨S131072x256, .f32⟩
  | .hbm, ⟨36, _⟩ => ⟨S_, .f32⟩
  | .hbm, ⟨37, _⟩ => ⟨S131072x256, .f32⟩
  | .hbm, ⟨38, _⟩ => ⟨S131072x256, .f32⟩
  | .hbm, ⟨39, _⟩ => ⟨S131072x256, .f32⟩
  | .hbm, ⟨40, _⟩ => ⟨S1x256, .f32⟩
  | .hbm, ⟨41, _⟩ => ⟨S131072x256, .f32⟩
  | .hbm, ⟨42, _⟩ => ⟨S131072x256, .f32⟩
  | .hbm, ⟨43, _⟩ => ⟨S_, .f32⟩
  | .hbm, ⟨44, _⟩ => ⟨S131072x256, .f32⟩
  | .hbm, ⟨45, _⟩ => ⟨S131072x256, .f32⟩
  | .hbm, ⟨46, _⟩ => ⟨S131072x256, .f32⟩
  | .hbm, ⟨47, _⟩ => ⟨S1x256, .f32⟩
  | .hbm, ⟨48, _⟩ => ⟨S131072x256, .f32⟩
  | .hbm, ⟨49, _⟩ => ⟨S131072x256, .f32⟩
  | .hbm, ⟨50, _⟩ => ⟨S_, .f32⟩
  | .hbm, ⟨51, _⟩ => ⟨S131072x256, .f32⟩
  | .hbm, ⟨52, _⟩ => ⟨S131072x256, .f32⟩
  | .hbm, ⟨53, _⟩ => ⟨S131072x319, .f32⟩
  | .hbm, ⟨54, _⟩ => ⟨S131072x256, .f32⟩
  | .hbm, ⟨55, _⟩ => ⟨S1x256, .f32⟩
  | .hbm, ⟨56, _⟩ => ⟨S131072x256, .f32⟩
  | .hbm, ⟨57, _⟩ => ⟨S131072x256, .f32⟩
  | .hbm, ⟨58, _⟩ => ⟨S_, .f32⟩
  | .hbm, ⟨59, _⟩ => ⟨S131072x256, .f32⟩
  | .hbm, ⟨60, _⟩ => ⟨S131072x256, .f32⟩
  | .hbm, ⟨61, _⟩ => ⟨S131072x256, .f32⟩
  | .hbm, ⟨62, _⟩ => ⟨S1x256, .f32⟩
  | .hbm, ⟨63, _⟩ => ⟨S131072x256, .f32⟩
  | .hbm, ⟨64, _⟩ => ⟨S131072x256, .f32⟩
  | .hbm, ⟨65, _⟩ => ⟨S_, .f32⟩
  | .hbm, ⟨66, _⟩ => ⟨S131072x256, .f32⟩
  | .hbm, ⟨67, _⟩ => ⟨S131072x256, .f32⟩
  | .hbm, ⟨68, _⟩ => ⟨S131072x256, .f32⟩
  | .hbm, ⟨69, _⟩ => ⟨S1x256, .f32⟩
  | .hbm, ⟨70, _⟩ => ⟨S131072x256, .f32⟩
  | .hbm, ⟨71, _⟩ => ⟨S131072x256, .f32⟩
  | .hbm, ⟨72, _⟩ => ⟨S_, .f32⟩
  | .hbm, ⟨73, _⟩ => ⟨S131072x256, .f32⟩
  | .hbm, ⟨74, _⟩ => ⟨S131072x256, .f32⟩
  | .hbm, ⟨75, _⟩ => ⟨S131072x256, .f32⟩
  | .hbm, ⟨76, _⟩ => ⟨S1x256, .f32⟩
  | .hbm, ⟨77, _⟩ => ⟨S131072x256, .f32⟩
  | .hbm, ⟨78, _⟩ => ⟨S131072x256, .f32⟩
  | .hbm, ⟨79, _⟩ => ⟨S_, .f32⟩
  | .hbm, ⟨80, _⟩ => ⟨S131072x256, .f32⟩
  | .hbm, ⟨81, _⟩ => ⟨S131072x256, .f32⟩
  | .hbm, ⟨82, _⟩ => ⟨S131072x257, .f32⟩
  | .hbm, ⟨83, _⟩ => ⟨S1x257, .f32⟩
  | .hbm, ⟨84, _⟩ => ⟨S131072x257, .f32⟩
  | .hbm, ⟨85, _⟩ => ⟨S131072x257, .f32⟩
  | .hbm, ⟨86, _⟩ => ⟨S131072x1, .f32⟩
  | .hbm, ⟨87, _⟩ => ⟨S131072x256, .f32⟩
  | .hbm, ⟨88, _⟩ => ⟨S131072x283, .f32⟩
  | .hbm, ⟨89, _⟩ => ⟨S131072x256, .f32⟩
  | .hbm, ⟨90, _⟩ => ⟨S1x256, .f32⟩
  | .hbm, ⟨91, _⟩ => ⟨S131072x256, .f32⟩
  | .hbm, ⟨92, _⟩ => ⟨S131072x256, .f32⟩
  | .hbm, ⟨93, _⟩ => ⟨S_, .f32⟩
  | .hbm, ⟨94, _⟩ => ⟨S131072x256, .f32⟩
  | .hbm, ⟨95, _⟩ => ⟨S131072x256, .f32⟩
  | .hbm, ⟨96, _⟩ => ⟨S131072x3, .f32⟩
  | .hbm, ⟨97, _⟩ => ⟨S1x3, .f32⟩
  | .hbm, ⟨98, _⟩ => ⟨S131072x3, .f32⟩
  | .hbm, ⟨99, _⟩ => ⟨S131072x3, .f32⟩
  | .hbm, ⟨100, _⟩ => ⟨S131072x4, .f32⟩
  | _, _ => ⟨S131072x90, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_call0_cst : Ref sig .tc := ⟨.hbm, 29, rfl⟩
abbrev main_call0_v0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_call1_cst : Ref sig .tc := ⟨.hbm, 36, rfl⟩
abbrev main_call1_v0 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_call2_cst : Ref sig .tc := ⟨.hbm, 43, rfl⟩
abbrev main_call2_v0 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_call3_cst : Ref sig .tc := ⟨.hbm, 50, rfl⟩
abbrev main_call3_v0 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_call4_cst : Ref sig .tc := ⟨.hbm, 58, rfl⟩
abbrev main_call4_v0 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_call5_cst : Ref sig .tc := ⟨.hbm, 65, rfl⟩
abbrev main_call5_v0 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_call6_cst : Ref sig .tc := ⟨.hbm, 72, rfl⟩
abbrev main_call6_v0 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_call7_cst : Ref sig .tc := ⟨.hbm, 79, rfl⟩
abbrev main_call7_v0 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_call8_cst : Ref sig .tc := ⟨.hbm, 93, rfl⟩
abbrev main_call8_v0 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩

abbrev nD : Nat := 1
abbrev τ : Topo := Topo.v7x

variable {F : FTy → Type} [FloatOps F]

class Facts₀ : Prop where
  slices_S131072x90_S131072x63_0_0 : S131072x90.Slices ![0, 0] S131072x63
  slices_S131072x90_S131072x27_0_63 : S131072x90.Slices ![0, 63] S131072x27
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  concatenates_S131072x63_S131072x256_S131072x319_d1 : Shape.Concatenates [S131072x63, S131072x256] S131072x319 1
  bcast_S257_S1x257_1 : S257.BroadcastsInDim S1x257 (![1] : Fin 1 → Fin S1x257.rank)
  bcast_S1x257_S131072x257_0_1 : S1x257.BroadcastsInDim S131072x257 (![0, 1] : Fin 2 → Fin S131072x257.rank)
  slices_S131072x257_S131072x1_0_0 : S131072x257.Slices ![0, 0] S131072x1
  slices_S131072x257_S131072x256_0_1 : S131072x257.Slices ![0, 1] S131072x256
  concatenates_S131072x27_S131072x256_S131072x283_d1 : Shape.Concatenates [S131072x27, S131072x256] S131072x283 1
  bcast_S3_S1x3_1 : S3.BroadcastsInDim S1x3 (![1] : Fin 1 → Fin S1x3.rank)
  bcast_S1x3_S131072x3_0_1 : S1x3.BroadcastsInDim S131072x3 (![0, 1] : Fin 2 → Fin S131072x3.rank)
  concatenates_S131072x3_S131072x1_S131072x4_d1 : Shape.Concatenates [S131072x3, S131072x1] S131072x4 1
  dot_S131072x63_S63x256_S131072x256_1_0_0_1_n_n_wf : DotDims.WF S131072x63 S63x256 S131072x256 [1] [0] [0] [1] [] []
  dot_S131072x256_S256x256_S131072x256_1_0_0_1_n_n_wf : DotDims.WF S131072x256 S256x256 S131072x256 [1] [0] [0] [1] [] []
  dot_S131072x319_S319x256_S131072x256_1_0_0_1_n_n_wf : DotDims.WF S131072x319 S319x256 S131072x256 [1] [0] [0] [1] [] []
  dot_S131072x256_S256x257_S131072x257_1_0_0_1_n_n_wf : DotDims.WF S131072x256 S256x257 S131072x257 [1] [0] [0] [1] [] []
  dot_S131072x283_S283x256_S131072x256_1_0_0_1_n_n_wf : DotDims.WF S131072x283 S283x256 S131072x256 [1] [0] [0] [1] [] []
  dot_S131072x256_S256x3_S131072x3_1_0_0_1_n_n_wf : DotDims.WF S131072x256 S256x3 S131072x3 [1] [0] [0] [1] [] []

variable [Facts₀]

def dot_S131072x63_S63x256_S131072x256_1_0_0_1_n_n : DotDims S131072x63 S63x256 S131072x256 where
  lhsContracting := [1]
  rhsContracting := [0]
  lhsNonContracting := [0]
  rhsNonContracting := [1]
  lhsBatch := []
  rhsBatch := []
  wf := dot_S131072x63_S63x256_S131072x256_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x319_S319x256_S131072x256_1_0_0_1_n_n : DotDims S131072x319 S319x256 S131072x256 where
  lhsContracting := [1]
  rhsContracting := [0]
  lhsNonContracting := [0]
  rhsNonContracting := [1]
  lhsBatch := []
  rhsBatch := []
  wf := dot_S131072x319_S319x256_S131072x256_1_0_0_1_n_n_wf
def dot_S131072x256_S256x257_S131072x257_1_0_0_1_n_n : DotDims S131072x256 S256x257 S131072x257 where
  lhsContracting := [1]
  rhsContracting := [0]
  lhsNonContracting := [0]
  rhsNonContracting := [1]
  lhsBatch := []
  rhsBatch := []
  wf := dot_S131072x256_S256x257_S131072x257_1_0_0_1_n_n_wf
def dot_S131072x283_S283x256_S131072x256_1_0_0_1_n_n : DotDims S131072x283 S283x256 S131072x256 where
  lhsContracting := [1]
  rhsContracting := [0]
  lhsNonContracting := [0]
  rhsNonContracting := [1]
  lhsBatch := []
  rhsBatch := []
  wf := dot_S131072x283_S283x256_S131072x256_1_0_0_1_n_n_wf
def dot_S131072x256_S256x3_S131072x3_1_0_0_1_n_n : DotDims S131072x256 S256x3 S131072x3 where
  lhsContracting := [1]
  rhsContracting := [0]
  lhsNonContracting := [0]
  rhsNonContracting := [1]
  lhsBatch := []
  rhsBatch := []
  wf := dot_S131072x256_S256x3_S131072x3_1_0_0_1_n_n_wf

class Facts : Prop extends Facts₀ where

variable [Facts]
-- ==== Proof.Spec.lean ====
/-
  The network both programs compute, written once for ONE ROW of the input.

  A row `x : Fin 90 → EReal` holds 63 position channels followed by 27 view channels.  Every layer is
  `z ↦ z · W + b` (a sum over the layer's fan-in of products on the extended reals), most of them followed by
  `max · 0`.  Two layers take a concatenation as input; the product of a concatenation `[u, v]` with a matrix
  is the product of `u` with the matrix's first rows plus the product of `v` with its remaining rows, so those
  layers are written here as the sum of two products.  The layer of width 257 is read as its column 0
  (the density) and its columns 1 … 256 (the features).  The output row is the three colour channels followed
  by the density.  Only commutativity and associativity of `+` are ever used: nothing here needs the inputs
  to be finite.
-/
import Idealize.ShloMosaic.Lib.ValueIdx
import Idealize.ShloMosaic.PureOps.Ideal.Laws

noncomputable section

namespace Cert.Nerf

open Idealize.ShloMosaic Idealize.ShloMosaic.ValueIdx

/-- A matrix and a vector as arrays over literal shapes. -/
abbrev Mat (a b : Nat) : Type := (⟨2, ![a, b]⟩ : Shape).Idx → EReal
abbrev Vc (a : Nat) : Type := (⟨1, ![a]⟩ : Shape).Idx → EReal

/-- A matrix array and a vector array read by their coordinates. -/
def cur {a b : Nat} (w : Mat a b) : Fin a → Fin b → EReal := fun k j => w (ix2 k j)
def cur1 {a : Nat} (b : Vc a) : Fin a → EReal := fun j => b (ix1 j)

/-- Row times matrix: entry `j` is the sum over the fan-in of the products. -/
def mm {K N : Nat} (h : Fin K → EReal) (w : Fin K → Fin N → EReal) : Fin N → EReal :=
  fun j => ∑ k : Fin K, h k * w k j

/-- Adding the bias, entry by entry. -/
def addb {N : Nat} (z b : Fin N → EReal) : Fin N → EReal := fun j => z j + b j

/-- The rectifier, entry by entry: the maximum with the zero word's value. -/
def relu {N : Nat} (z : Fin N → EReal) : Fin N → EReal := fun j => max (z j) (Ideal.ofBits .f32 0x00000000#32)

/-- The weights, each matrix by its coordinates; the two concatenation layers' matrices and the 257-wide layer's
    matrix and bias already cut into the pieces the row function uses. -/
structure Wts where
  d1w : Fin 63 → Fin 256 → EReal
  d1b : Fin 256 → EReal
  d2w : Fin 256 → Fin 256 → EReal
  d2b : Fin 256 → EReal
  d3w : Fin 256 → Fin 256 → EReal
  d3b : Fin 256 → EReal
  d4w : Fin 256 → Fin 256 → EReal
  d4b : Fin 256 → EReal
  e1wp : Fin 63 → Fin 256 → EReal
  e1wh : Fin 256 → Fin 256 → EReal
  e1b : Fin 256 → EReal
  e2w : Fin 256 → Fin 256 → EReal
  e2b : Fin 256 → EReal
  e3w : Fin 256 → Fin 256 → EReal
  e3b : Fin 256 → EReal
  e4w : Fin 256 → Fin 256 → EReal
  e4b : Fin 256 → EReal
  e5wf : Fin 256 → Fin 256 → EReal
  e5wd : Fin 256 → Fin 1 → EReal
  e5bf : Fin 256 → EReal
  e5bd : Fin 1 → EReal
  c1wv : Fin 27 → Fin 256 → EReal
  c1wf : Fin 256 → Fin 256 → EReal
  c1b : Fin 256 → EReal
  c2w : Fin 256 → Fin 3 → EReal
  c2b : Fin 3 → EReal

/-- The position channels and the view channels of a row. -/
def pos (x : Fin 90 → EReal) : Fin 63 → EReal := fun k => x ⟨k.val, by omega⟩
def view (x : Fin 90 → EReal) : Fin 27 → EReal := fun k => x ⟨63 + k.val, by omega⟩

variable (W : Wts) (x : Fin 90 → EReal)

/-- The first density stack: four rectified layers from the position channels. -/
def hid1 : Fin 256 → EReal := relu (addb (mm (pos x) W.d1w) W.d1b)
def hid2 : Fin 256 → EReal := relu (addb (mm (hid1 W x) W.d2w) W.d2b)
def hid3 : Fin 256 → EReal := relu (addb (mm (hid2 W x) W.d3w) W.d3b)
def hid4 : Fin 256 → EReal := relu (addb (mm (hid3 W x) W.d4w) W.d4b)

/-- The second density stack: its first layer sees the position channels again beside the hidden row. -/
def sec1 : Fin 256 → EReal :=
  relu (addb (fun j => mm (pos x) W.e1wp j + mm (hid4 W x) W.e1wh j) W.e1b)
def sec2 : Fin 256 → EReal := relu (addb (mm (sec1 W x) W.e2w) W.e2b)
def sec3 : Fin 256 → EReal := relu (addb (mm (sec2 W x) W.e3w) W.e3b)
def sec4 : Fin 256 → EReal := relu (addb (mm (sec3 W x) W.e4w) W.e4b)

/-- The unrectified 257-wide layer, read as features and density. -/
def feat : Fin 256 → EReal := addb (mm (sec4 W x) W.e5wf) W.e5bf
def dens : Fin 1 → EReal := addb (mm (sec4 W x) W.e5wd) W.e5bd

/-- The colour head: a rectified layer over the view channels beside the features, then three outputs. -/
def col : Fin 256 → EReal :=
  relu (addb (fun j => mm (view x) W.c1wv j + mm (feat W x) W.c1wf j) W.c1b)
def rgb : Fin 3 → EReal := addb (mm (col W x) W.c2w) W.c2b

/-- The output row: colour, then density. -/
def rowOut : Fin 4 → EReal := fun q =>
  if h : q.val < 3 then rgb W x ⟨q.val, h⟩ else dens W x ⟨q.val - 3, by have := q.isLt; omega⟩

/-- The weights as the argument arrays give them: the concatenation layers' matrices cut at row 63 and row 27,
    the 257-wide layer's matrix and bias cut after column 0. -/
def wtsOfArgs (a1 : Mat 63 256) (a2 : Vc 256) (a3 : Mat 256 256) (a4 : Vc 256) (a5 : Mat 256 256) (a6 : Vc 256)
    (a7 : Mat 256 256) (a8 : Vc 256) (a9 : Mat 319 256) (a10 : Vc 256) (a11 : Mat 256 256) (a12 : Vc 256)
    (a13 : Mat 256 256) (a14 : Vc 256) (a15 : Mat 256 256) (a16 : Vc 256) (a17 : Mat 256 257) (a18 : Vc 257)
    (a19 : Mat 283 256) (a20 : Vc 256) (a21 : Mat 256 3) (a22 : Vc 3) : Wts where
  d1w := cur a1
  d1b := cur1 a2
  d2w := cur a3
  d2b := cur1 a4
  d3w := cur a5
  d3b := cur1 a6
  d4w := cur a7
  d4b := cur1 a8
  e1wp := fun k j => a9 (ix2 (⟨k.val, by omega⟩ : Fin 319) j)
  e1wh := fun k j => a9 (ix2 (⟨63 + k.val, by omega⟩ : Fin 319) j)
  e1b := cur1 a10
  e2w := cur a11
  e2b := cur1 a12
  e3w := cur a13
  e3b := cur1 a14
  e4w := cur a15
  e4b := cur1 a16
  e5wf := fun k j => a17 (ix2 k (⟨1 + j.val, by omega⟩ : Fin 257))
  e5wd := fun k j => a17 (ix2 k (⟨j.val, by omega⟩ : Fin 257))
  e5bf := fun j => a18 (ix1 (⟨1 + j.val, by omega⟩ : Fin 257))
  e5bd := fun j => a18 (ix1 (⟨j.val, by omega⟩ : Fin 257))
  c1wv := fun k j => a19 (ix2 (⟨k.val, by omega⟩ : Fin 283) j)
  c1wf := fun k j => a19 (ix2 (⟨27 + k.val, by omega⟩ : Fin 283) j)
  c1b := cur1 a20
  c2w := cur a21
  c2b := cur1 a22

/-- The whole result array: row `r` of the output is the row function of row `r` of the input. -/
def G (a0 : Mat 131072 90) (W : Wts) : Mat 131072 4 :=
  fun i => rowOut W (fun c => a0 (ix2 (⟨(i 0).val, idx2_lt0 i⟩ : Fin 131072) c)) ⟨(i 1).val, idx2_lt1 i⟩

theorem G_ix2 (a0 : Mat 131072 90) (W : Wts) (r : Fin 131072) (q : Fin 4) :
    G a0 W (ix2 r q) = rowOut W (fun c => a0 (ix2 r c)) q := rfl

/-- A sum over `a + b` indices is the sum over the first `a` plus the sum over the remaining `b`. -/
theorem sum_split {M : Type} [AddCommMonoid M] (a b n : Nat) (h : a + b = n) (f : Fin n → M) :
    ∑ k : Fin n, f k = ∑ k : Fin a, f ⟨k.val, by omega⟩ + ∑ k : Fin b, f ⟨a + k.val, by omega⟩ := by
  subst h
  rw [Fin.sum_univ_add]
  rfl

end Cert.Nerf

end
-- ==== Proof.KLayers.lean ====
/-
  One dense layer on a block of rows, read at one entry.

  A block `X` of `M` rows of width `K`, multiplied into the zero block by a `K × N` matrix, has at row `p`, column
  `j` the sum over `k` of `X (p, k) · W (k, j)`: a statement about row `p` of `X` alone.  Adding a bias that was
  laid out as one row and repeated over the `M` rows adds `b j`; the maximum with a block of zeros is the
  maximum with zero.  So whatever is known of row `p` of the input block (`hX`) carries to row `p` of the result.
-/
import proofs.«129799_j46471546142968_2_alg».proof.Proof.Spec
import Idealize.ShloMosaic.Lib.Pipeline.Value
import Idealize.ShloMosaic.Lib.ValueLayout

noncomputable section

namespace Cert.Nerf

open Idealize.ShloMosaic Idealize.ShloMosaic.ValueIdx

variable {M K N : Nat} {φ₁ φ₂ : FTy}

/-- The left operand's index of a plain `M×K` by `K×N` product at output `(p, j)` and contraction position `k`
    is `(p, k)`. -/
theorem plain_lhsIdx (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p j) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.2 rfl)]
    rfl
  | ⟨1, _⟩ => exact ((DotDims.plain M K N).lhsIdx_val_of_single rfl _ _).trans hk

/-- The right operand's index there is `(k, j)`. -/
theorem plain_rhsIdx (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ =>
    show ((DotDims.plain M K N).rhsIdx (ix2 p j) _ 1).val = j.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.2 rfl)]
    rfl

/-- A plain product into the zero block, at `(p, j)`: row `p` of the left block times the matrix. -/
theorem matmul_plain_at (X : FVec Ideal ⟨2, ![M, K]⟩ φ₁) (Wt : FVec Ideal ⟨2, ![K, N]⟩ φ₂) (p : Fin M) (j : Fin N)
    (h : Fin K → EReal) (hX : ∀ k, X (ix2 p k) = h k) :
    matmul (DotDims.plain M K N) none X Wt (constant (F := Ideal) ⟨2, ![M, N]⟩ .f32 0x00000000#32) (ix2 p j)
      = mm h (cur Wt) j := by
  simp only [matmul]
  rw [Ideal.matmul_constant_zero_apply, ← Equiv.sum_comp (contrEquiv1 (DotDims.plain M K N) K rfl rfl).symm]
  unfold mm cur
  refine Finset.sum_congr rfl fun k _ => ?_
  rw [plain_lhsIdx, plain_rhsIdx, hX]

/-- The same for a product whose dimension record is the plain one, and whose matrix passes through a cast to its
    own shape. -/
theorem mm_at (D : DotDims ⟨2, ![M, K]⟩ ⟨2, ![K, N]⟩ ⟨2, ![M, N]⟩) (hD : D = DotDims.plain M K N)
    (X : FVec Ideal ⟨2, ![M, K]⟩ φ₁) (W0 : FVec Ideal ⟨2, ![K, N]⟩ φ₂)
    (hc : (⟨2, ![K, N]⟩ : Shape).ShapeCasts ⟨2, ![K, N]⟩) (p : Fin M) (j : Fin N)
    (h : Fin K → EReal) (hX : ∀ k, X (ix2 p k) = h k) :
    matmul D none X (shapeCast ⟨2, ![K, N]⟩ W0 hc) (constant (F := Ideal) ⟨2, ![M, N]⟩ .f32 0x00000000#32) (ix2 p j)
      = mm h (cur W0) j := by
  subst hD
  rw [shapeCast_self]
  exact matmul_plain_at X W0 p j h hX

/-- A change of float format is the identity on the extended reals. -/
theorem trunc_at {s : Shape} {φ ψ : FTy} (Z : FVec Ideal s φ) (hlt : ψ.bits < φ.bits) (i : s.Idx) (z : EReal)
    (hZ : Z i = z) : (truncf ψ Z hlt : FVec Ideal s ψ) i = z := hZ

/-- A vector cast to its own shape, read at `j`. -/
theorem selfcast1 (b : FVec Ideal ⟨1, ![N]⟩ .f32) (h : (⟨1, ![N]⟩ : Shape).ShapeCasts ⟨1, ![N]⟩) (j : Fin N) :
    shapeCast ⟨1, ![N]⟩ b h (ix1 j) = cur1 b j := by
  rw [shapeCast_self]
  rfl

/-- A bias vector laid out as one row and repeated over the rows, added: its entry `j` is added at `(p, j)`. -/
theorem bias_at (Z : FVec Ideal ⟨2, ![M, N]⟩ .f32) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (p : Fin M) (j : Fin N) (z bb : Fin N → EReal) (hZ : Z (ix2 p j) = z j) (hb : b (ix1 j) = bb j) :
    addf Z (broadcastTo ⟨2, ![M, N]⟩ (shapeCast ⟨2, ![1, N]⟩ b h1) h2) (ix2 p j) = addb z bb j := by
  rw [addf_apply, broadcastTo_1b_ab_apply, shapeCast_a_1a_apply, hZ, hb]
  rfl

/-- The maximum with a block of zeros, at `(p, j)`. -/
theorem relu_at (Z : FVec Ideal ⟨2, ![M, N]⟩ .f32) (p : Fin M) (j : Fin N) (z : Fin N → EReal)
    (hZ : Z (ix2 p j) = z j) :
    maximumf Z (broadcast ⟨2, ![M, N]⟩ (Scalar.ofBits (F := Ideal) .f32 0x00000000#32)) (ix2 p j) = relu z j := by
  rw [maximumf_apply, hZ]
  rfl

/-- Two blocks added, at `(p, j)`. -/
theorem add_at (Z₁ Z₂ : FVec Ideal ⟨2, ![M, N]⟩ .f32) (p : Fin M) (j : Fin N) (z₁ z₂ : Fin N → EReal)
    (h₁ : Z₁ (ix2 p j) = z₁ j) (h₂ : Z₂ (ix2 p j) = z₂ j) :
    addf Z₁ Z₂ (ix2 p j) = z₁ j + z₂ j := by
  rw [addf_apply, h₁, h₂]

end Cert.Nerf

end
-- ==== Proof.KPay.lean ====
/-
  The kernel's body, read at one row of its block.

  The body computes on a block of 2048 rows at once.  Every operation in it acts on each row by itself: a
  product of the block with a weight matrix multiplies each row by the matrix, a bias and a rectifier act entry
  by entry, and the final side-by-side placement of the colour columns and the density column places each row's
  entries.  So row `p` of what the body stores is the row function (the specification) of row `p` of the
  block of inputs, at the weights the body's other blocks hold.  A change of float format is the identity on
  the extended reals, so the roundings to the narrower format on the way into each product disappear.
-/
import proofs.«129799_j46471546142968_2_alg».proof.Proof.KLayers
import proofs.«129799_j46471546142968_2_alg».proof.Proof.Gen.KernelIdeal.Skeleton

noncomputable section

namespace Cert.Nerf

open Idealize.ShloMosaic Idealize.ShloMosaic.ValueIdx Cert.KernelIdeal Cert.KernelIdeal.Gen

/-! ## The five products of the body are plain row-by-matrix products -/

theorem dot63 : dot_S2048x63_S63x256_S2048x256_1_0_0_1_n_n = DotDims.plain 2048 63 256 := rfl
theorem dot256 : dot_S2048x256_S256x256_S2048x256_1_0_0_1_n_n = DotDims.plain 2048 256 256 := rfl
theorem dot1 : dot_S2048x256_S256x1_S2048x1_1_0_0_1_n_n = DotDims.plain 2048 256 1 := rfl
theorem dot27 : dot_S2048x27_S27x256_S2048x256_1_0_0_1_n_n = DotDims.plain 2048 27 256 := rfl
theorem dot3 : dot_S2048x256_S256x3_S2048x3_1_0_0_1_n_n = DotDims.plain 2048 256 3 := rfl

/-! ## Each stretch of the body, at row `p` of the block

Every lemma says: what the stretch leaves at row `p` is a function of row `p` of what it was given. -/

/-- The position channels of row `p` of the block of inputs. -/
theorem pay3_at (v0 : FVec Ideal S2048x90 .f32) (p : Fin 2048) (k : Fin 63) :
    k0_pay3 (F := Ideal) v0 (ix2 p k) = pos (fun c => v0 (ix2 p c)) k := by
  unfold k0_pay3 k0_pay2
  exact slice2_axis1_apply 0 _ _ p k ⟨k.val, by omega⟩ (Nat.zero_add _).symm

/-- The view channels of row `p`. -/
theorem pay4_at (v0 : FVec Ideal S2048x90 .f32) (p : Fin 2048) (k : Fin 27) :
    k0_pay4 (F := Ideal) v0 (ix2 p k) = view (fun c => v0 (ix2 p c)) k := by
  unfold k0_pay4 k0_pay2
  exact slice2_axis1_apply 63 _ _ p k ⟨63 + k.val, by omega⟩ rfl

/-- Three rectified layers from the position channels, then the fourth layer's product. -/
theorem pay5_at (v0 : FVec Ideal S2048x90 .f32) (v4 : FVec Ideal S63x256 .bf16) (v6 : FVec Ideal S256 .f32)
    (v14 : FVec Ideal S256x256 .bf16) (v16 : FVec Ideal S256 .f32) (v24 : FVec Ideal S256x256 .bf16) (v26 : FVec Ideal S256 .f32)
    (v34 : FVec Ideal S256x256 .bf16) (p : Fin 2048) (j : Fin 256) :
    k0_pay5 (F := Ideal) v0 v4 v6 v14 v16 v24 v26 v34 (ix2 p j)
      = mm (relu (addb (mm (relu (addb (mm (relu (addb (mm (pos fun c => v0 (ix2 p c)) (cur v4)) (cur1 v6)))
          (cur v14)) (cur1 v16))) (cur v24)) (cur1 v26))) (cur v34) j := by
  unfold k0_pay5
  exact mm_at _ dot256 _ v34 _ p j _ fun k =>
    trunc_at _ _ _ _ (relu_at _ p k _ (bias_at _ v26 _ _ p k _ _ (mm_at _ dot256 _ v24 _ p k _ fun k =>
    trunc_at _ _ _ _ (relu_at _ p k _ (bias_at _ v16 _ _ p k _ _ (mm_at _ dot256 _ v14 _ p k _ fun k =>
    trunc_at _ _ _ _ (relu_at _ p k _ (bias_at _ v6 _ _ p k _ _ (mm_at _ dot63 _ v4 _ p k _ fun k =>
      pay3_at v0 p k) rfl))) rfl))) rfl))

/-- The fourth layer's bias and rectifier, then the second stack's first three layers; the first of them adds the
    product of the position channels to the product of the hidden row. -/
theorem pay6_at (v2 : FVec Ideal S2048x63 .bf16) (v36 : FVec Ideal S256 .f32) (v37 : FVec Ideal S2048x256 .f32)
    (v44 : FVec Ideal S256 .f32) (v45 : FVec Ideal S63x256 .bf16) (v48 : FVec Ideal S256x256 .bf16)
    (v58 : FVec Ideal S256x256 .bf16) (v60 : FVec Ideal S256 .f32) (v68 : FVec Ideal S256x256 .bf16) (v70 : FVec Ideal S256 .f32)
    (p : Fin 2048) (xp : Fin 63 → EReal) (z37 : Fin 256 → EReal)
    (h2 : ∀ k, v2 (ix2 p k) = xp k) (h37 : ∀ k, v37 (ix2 p k) = z37 k) (j : Fin 256) :
    k0_pay6 (F := Ideal) v2 v36 v37 v44 v45 v48 v58 v60 v68 v70 (ix2 p j)
      = relu (addb (mm (relu (addb (mm (relu (addb
          (fun j => mm xp (cur v45) j + mm (relu (addb z37 (cur1 v36))) (cur v48) j) (cur1 v44)))
          (cur v58)) (cur1 v60))) (cur v68)) (cur1 v70)) j := by
  unfold k0_pay6
  exact trunc_at _ _ _ _ (relu_at _ p j _ (bias_at _ v70 _ _ p j _ _ (mm_at _ dot256 _ v68 _ p j _ fun k =>
    trunc_at _ _ _ _ (relu_at _ p k _ (bias_at _ v60 _ _ p k _ _ (mm_at _ dot256 _ v58 _ p k _ fun k =>
    trunc_at _ _ _ _ (relu_at _ p k _ (bias_at _ v44 _ _ p k _ _
      (add_at _ _ p k _ _ (mm_at _ dot63 _ v45 _ p k _ h2) (mm_at _ dot256 _ v48 _ p k _ fun k' =>
        trunc_at _ _ _ _ (relu_at _ p k' _ (bias_at _ v36 _ _ p k' _ _ (h37 k') rfl)))) rfl))) rfl))) rfl))

/-- The second stack's fourth layer. -/
theorem pay7_at (v77 : FVec Ideal S2048x256 .bf16) (v78 : FVec Ideal S256x256 .bf16) (v80 : FVec Ideal S256 .f32)
    (p : Fin 2048) (s3 : Fin 256 → EReal) (h77 : ∀ k, v77 (ix2 p k) = s3 k) (j : Fin 256) :
    k0_pay7 (F := Ideal) v77 v78 v80 (ix2 p j) = relu (addb (mm s3 (cur v78)) (cur1 v80)) j := by
  unfold k0_pay7
  exact trunc_at _ _ _ _ (relu_at _ p j _ (bias_at _ v80 _ _ p j _ _ (mm_at _ dot256 _ v78 _ p j _ h77) rfl))

/-- The density: the one-column product and its one-entry bias. -/
theorem pay8_at (v77 : FVec Ideal S2048x256 .bf16) (v78 : FVec Ideal S256x256 .bf16) (v80 : FVec Ideal S256 .f32)
    (v96 : FVec Ideal S256x1 .bf16) (v99 : FVec Ideal S1 .f32)
    (p : Fin 2048) (s3 : Fin 256 → EReal) (h77 : ∀ k, v77 (ix2 p k) = s3 k) (j : Fin 1) :
    k0_pay8 (F := Ideal) v77 v78 v80 v96 v99 (ix2 p j)
      = addb (mm (relu (addb (mm s3 (cur v78)) (cur1 v80))) (cur v96)) (cur1 v99) j := by
  unfold k0_pay8
  exact bias_at _ _ _ _ p j _ _ (mm_at _ dot1 _ v96 _ p j _ fun k => pay7_at v77 v78 v80 p s3 h77 k)
    (selfcast1 v99 _ j)

/-- The features, then the colour head's rectified layer over the view channels beside the features. -/
theorem pay9_at (v3 : FVec Ideal S2048x27 .bf16) (v77 : FVec Ideal S2048x256 .bf16) (v78 : FVec Ideal S256x256 .bf16)
    (v80 : FVec Ideal S256 .f32) (v88 : FVec Ideal S256x256 .bf16) (v91 : FVec Ideal S256 .f32) (v105 : FVec Ideal S256 .f32)
    (v106 : FVec Ideal S27x256 .bf16) (v109 : FVec Ideal S256x256 .bf16)
    (p : Fin 2048) (xv : Fin 27 → EReal) (s3 : Fin 256 → EReal)
    (h3 : ∀ k, v3 (ix2 p k) = xv k) (h77 : ∀ k, v77 (ix2 p k) = s3 k) (j : Fin 256) :
    k0_pay9 (F := Ideal) v3 v77 v78 v80 v88 v91 v105 v106 v109 (ix2 p j)
      = relu (addb (fun j => mm xv (cur v106) j
          + mm (addb (mm (relu (addb (mm s3 (cur v78)) (cur1 v80))) (cur v88)) (cur1 v91)) (cur v109) j)
          (cur1 v105)) j := by
  unfold k0_pay9
  exact relu_at _ p j _ (bias_at _ v105 _ _ p j _ _
    (add_at _ _ p j _ _ (mm_at _ dot27 _ v106 _ p j _ h3) (mm_at _ dot256 _ v109 _ p j _ fun k =>
      trunc_at _ _ _ _ (bias_at _ _ _ _ p k _ _
        (mm_at _ dot256 _ v88 _ p k _ fun k' => pay7_at v77 v78 v80 p s3 h77 k') (selfcast1 v91 _ k)))) rfl)

/-- The three colour outputs and the density side by side: columns 0, 1, 2 are the colour layer, column 3 the density. -/
theorem pay1_at (v103 : FVec Ideal S2048x1 .f32) (v117 : FVec Ideal S2048x256 .f32) (v119 : FVec Ideal S256x3 .bf16)
    (v121 : FVec Ideal S3 .f32) (p : Fin 2048) (d : Fin 1 → EReal) (cc : Fin 256 → EReal)
    (h103 : ∀ k, v103 (ix2 p k) = d k) (h117 : ∀ k, v117 (ix2 p k) = cc k) (q : Fin 4) :
    k0_pay1 (F := Ideal) v103 v117 v119 v121 (ix2 p q)
      = if h : q.val < 3 then addb (mm cc (cur v119)) (cur1 v121) ⟨q.val, h⟩
        else d ⟨q.val - 3, by have := q.isLt; omega⟩ := by
  unfold k0_pay1
  by_cases h : q.val < 3
  · rw [dif_pos h]
    refine (concatenate_pair_apply_left (t := S2048x4) (s₁ := S2048x3) (s₂ := S2048x1) (1 : Fin 2) _ _ _ (ix2 p q) rfl (ix2 p (⟨q.val, h⟩ : Fin 3))
      (fun b => match b with | ⟨0, _⟩ => rfl | ⟨1, _⟩ => rfl)).trans ?_
    exact bias_at _ v121 _ _ p _ _ _ (mm_at _ dot3 _ v119 _ p _ _ fun k => trunc_at _ _ _ _ (h117 k)) rfl
  · rw [dif_neg h]
    refine (concatenate_pair_apply_right (t := S2048x4) (s₁ := S2048x3) (s₂ := S2048x1) (1 : Fin 2) _ _ _ (ix2 p q) rfl rfl
      (ix2 p (⟨q.val - 3, by have := q.isLt; omega⟩ : Fin 1))
      (fun b => match b with | ⟨0, _⟩ => fun _ => rfl | ⟨1, _⟩ => fun hne => absurd rfl hne)
      (by show (q.val - 3) + 3 = q.val; omega)).trans ?_
    exact h103 _

/-! ## The whole body at row `p` -/

/-- The weights as the body's loaded blocks give them. -/
def wtsOfBlocks (x1 : FVec Ideal S63x256 .bf16) (x2 : FVec Ideal S256 .f32) (x3 : FVec Ideal S256x256 .bf16)
    (x4 : FVec Ideal S256 .f32) (x5 : FVec Ideal S256x256 .bf16) (x6 : FVec Ideal S256 .f32) (x7 : FVec Ideal S256x256 .bf16)
    (x8 : FVec Ideal S256 .f32) (x9 : FVec Ideal S63x256 .bf16) (x10 : FVec Ideal S256x256 .bf16) (x11 : FVec Ideal S256 .f32)
    (x12 : FVec Ideal S256x256 .bf16) (x13 : FVec Ideal S256 .f32) (x14 : FVec Ideal S256x256 .bf16) (x15 : FVec Ideal S256 .f32)
    (x16 : FVec Ideal S256x256 .bf16) (x17 : FVec Ideal S256 .f32) (x18 : FVec Ideal S256x256 .bf16) (x19 : FVec Ideal S256x1 .bf16)
    (x20 : FVec Ideal S256 .f32) (x21 : FVec Ideal S1 .f32) (x22 : FVec Ideal S27x256 .bf16) (x23 : FVec Ideal S256x256 .bf16)
    (x24 : FVec Ideal S256 .f32) (x25 : FVec Ideal S256x3 .bf16) (x26 : FVec Ideal S3 .f32) : Wts where
  d1w := cur x1
  d1b := cur1 x2
  d2w := cur x3
  d2b := cur1 x4
  d3w := cur x5
  d3b := cur1 x6
  d4w := cur x7
  d4b := cur1 x8
  e1wp := cur x9
  e1wh := cur x10
  e1b := cur1 x11
  e2w := cur x12
  e2b := cur1 x13
  e3w := cur x14
  e3b := cur1 x15
  e4w := cur x16
  e4b := cur1 x17
  e5wf := cur x18
  e5wd := cur x19
  e5bf := cur1 x20
  e5bd := cur1 x21
  c1wv := cur x22
  c1wf := cur x23
  c1b := cur1 x24
  c2w := cur x25
  c2b := cur1 x26

/-- What the body stores at row `p`, column `q` of its output block is the row function of row `p` of its input
    block, at the weights its other blocks hold. -/
theorem block_row (x0 : FVec Ideal S2048x90 .f32) (x1 : FVec Ideal S63x256 .bf16) (x2 : FVec Ideal S256 .f32) (x3 : FVec Ideal S256x256 .bf16)
    (x4 : FVec Ideal S256 .f32) (x5 : FVec Ideal S256x256 .bf16) (x6 : FVec Ideal S256 .f32) (x7 : FVec Ideal S256x256 .bf16)
    (x8 : FVec Ideal S256 .f32) (x9 : FVec Ideal S63x256 .bf16) (x10 : FVec Ideal S256x256 .bf16) (x11 : FVec Ideal S256 .f32)
    (x12 : FVec Ideal S256x256 .bf16) (x13 : FVec Ideal S256 .f32) (x14 : FVec Ideal S256x256 .bf16) (x15 : FVec Ideal S256 .f32)
    (x16 : FVec Ideal S256x256 .bf16) (x17 : FVec Ideal S256 .f32) (x18 : FVec Ideal S256x256 .bf16) (x19 : FVec Ideal S256x1 .bf16)
    (x20 : FVec Ideal S256 .f32) (x21 : FVec Ideal S1 .f32) (x22 : FVec Ideal S27x256 .bf16) (x23 : FVec Ideal S256x256 .bf16)
    (x24 : FVec Ideal S256 .f32) (x25 : FVec Ideal S256x3 .bf16) (x26 : FVec Ideal S3 .f32) (p : Fin 2048) (q : Fin 4) :
    k0_pay1 (F := Ideal)
        (k0_pay8 (k0_pay6 (k0_pay3 x0) x8 (k0_pay5 x0 x1 x2 x3 x4 x5 x6 x7) x11 x9 x10 x12 x13 x14 x15) x16 x17 x19 x21)
        (k0_pay9 (k0_pay4 x0) (k0_pay6 (k0_pay3 x0) x8 (k0_pay5 x0 x1 x2 x3 x4 x5 x6 x7) x11 x9 x10 x12 x13 x14 x15)
          x16 x17 x18 x20 x24 x22 x23) x25 x26 (ix2 p q)
      = rowOut (wtsOfBlocks x1 x2 x3 x4 x5 x6 x7 x8 x9 x10 x11 x12 x13 x14 x15 x16 x17 x18 x19 x20 x21 x22 x23 x24 x25 x26)
          (fun c => x0 (ix2 p c)) q := by
  have h6 := fun k => pay6_at (k0_pay3 x0) x8 (k0_pay5 x0 x1 x2 x3 x4 x5 x6 x7) x11 x9 x10 x12 x13 x14 x15 p _ _
    (pay3_at x0 p) (pay5_at x0 x1 x2 x3 x4 x5 x6 x7 p) k
  refine (pay1_at _ _ x25 x26 p _ _ (pay8_at _ x16 x17 x19 x21 p _ h6)
    (pay9_at _ _ x16 x17 x18 x20 x24 x22 x23 p _ _ (pay4_at x0 p) h6) q).trans ?_
  rfl

end Cert.Nerf

end
-- ==== Proof.KBlocks.lean ====
/-
  The blocks the body sees, as the argument arrays.

  Before the kernel is launched the host narrows each weight matrix's float format (the identity on the extended
  reals) and cuts three of the arguments: the 319-row matrix into its first 63 rows and its other 256 rows, the
  283-row matrix into its first 27 rows and its other 256, the 257-column matrix and the 257-entry bias into
  column (entry) 0 and the other 256.  Each of these arrays reaches the body as ONE block, the whole array, at
  every grid point: its index map is constantly zero.  Only the input rows move with the grid: at point `t` the
  body sees rows `2048 t … 2048 t + 2047`, and writes back the same rows of the result.
-/
import proofs.«129799_j46471546142968_2_alg».proof.Proof.KPay
import proofs.«129799_j46471546142968_2_alg».proof.Proof.FrameKI
import Idealize.ShloMosaic.Lib.StableHlo.Run

noncomputable section

namespace Cert.Nerf

open Idealize.ShloMosaic Idealize.ShloMosaic.ValueIdx Idealize.ShloMosaic.TcCoe Idealize.SL.Sem
open Cert.KernelIdeal Cert.KernelIdeal.Gen Cert.KernelIdeal.GenP

variable (m : (ℓ : Loc nD τ sig) → Buf (Elt Ideal) ℓ) (c : Dev nD)

/-! ## The argument arrays on core `c` -/

abbrev arg0 : Mat 131072 90 := m ((c : Thread nD τ).loc main_arg0)
abbrev arg1 : Mat 63 256 := m ((c : Thread nD τ).loc main_arg1)
abbrev arg2 : Vc 256 := m ((c : Thread nD τ).loc main_arg2)
abbrev arg3 : Mat 256 256 := m ((c : Thread nD τ).loc main_arg3)
abbrev arg4 : Vc 256 := m ((c : Thread nD τ).loc main_arg4)
abbrev arg5 : Mat 256 256 := m ((c : Thread nD τ).loc main_arg5)
abbrev arg6 : Vc 256 := m ((c : Thread nD τ).loc main_arg6)
abbrev arg7 : Mat 256 256 := m ((c : Thread nD τ).loc main_arg7)
abbrev arg8 : Vc 256 := m ((c : Thread nD τ).loc main_arg8)
abbrev arg9 : Mat 319 256 := m ((c : Thread nD τ).loc main_arg9)
abbrev arg10 : Vc 256 := m ((c : Thread nD τ).loc main_arg10)
abbrev arg11 : Mat 256 256 := m ((c : Thread nD τ).loc main_arg11)
abbrev arg12 : Vc 256 := m ((c : Thread nD τ).loc main_arg12)
abbrev arg13 : Mat 256 256 := m ((c : Thread nD τ).loc main_arg13)
abbrev arg14 : Vc 256 := m ((c : Thread nD τ).loc main_arg14)
abbrev arg15 : Mat 256 256 := m ((c : Thread nD τ).loc main_arg15)
abbrev arg16 : Vc 256 := m ((c : Thread nD τ).loc main_arg16)
abbrev arg17 : Mat 256 257 := m ((c : Thread nD τ).loc main_arg17)
abbrev arg18 : Vc 257 := m ((c : Thread nD τ).loc main_arg18)
abbrev arg19 : Mat 283 256 := m ((c : Thread nD τ).loc main_arg19)
abbrev arg20 : Vc 256 := m ((c : Thread nD τ).loc main_arg20)
abbrev arg21 : Mat 256 3 := m ((c : Thread nD τ).loc main_arg21)
abbrev arg22 : Vc 3 := m ((c : Thread nD τ).loc main_arg22)

/-! ## What the host leaves in each array the kernel stages -/

theorem V_v0 : (V m c main_v0 : Mat 63 256) = arg1 m c := by
  dsimp only [V, hostOps0]; after_results <;> rfl

theorem V_v1 : (V m c main_v1 : Mat 256 256) = arg3 m c := by
  dsimp only [V, hostOps0]; after_results <;> rfl

theorem V_v2 : (V m c main_v2 : Mat 256 256) = arg5 m c := by
  dsimp only [V, hostOps0]; after_results <;> rfl

theorem V_v3 : (V m c main_v3 : Mat 256 256) = arg7 m c := by
  dsimp only [V, hostOps0]; after_results <;> rfl

theorem V_v5 : (V m c main_v5 : Mat 63 256) = extractStridedSlice S63x256 ![0, 0] (arg9 m c) Cert.KernelIdeal.Facts₀.slices_S319x256_S63x256_0_0 := by
  dsimp only [V, hostOps0]; after_results <;> rfl

theorem V_v7 : (V m c main_v7 : Mat 256 256) = extractStridedSlice S256x256 ![63, 0] (arg9 m c) Cert.KernelIdeal.Facts₀.slices_S319x256_S256x256_63_0 := by
  dsimp only [V, hostOps0]; after_results <;> rfl

theorem V_v8 : (V m c main_v8 : Mat 256 256) = arg11 m c := by
  dsimp only [V, hostOps0]; after_results <;> rfl

theorem V_v9 : (V m c main_v9 : Mat 256 256) = arg13 m c := by
  dsimp only [V, hostOps0]; after_results <;> rfl

theorem V_v10 : (V m c main_v10 : Mat 256 256) = arg15 m c := by
  dsimp only [V, hostOps0]; after_results <;> rfl

theorem V_v12 : (V m c main_v12 : Mat 256 256) = extractStridedSlice S256x256 ![0, 1] (arg17 m c) Cert.KernelIdeal.Facts₀.slices_S256x257_S256x256_0_1 := by
  dsimp only [V, hostOps0]; after_results <;> rfl

theorem V_v14 : (V m c main_v14 : Mat 256 1) = extractStridedSlice S256x1 ![0, 0] (arg17 m c) Cert.KernelIdeal.Facts₀.slices_S256x257_S256x1_0_0 := by
  dsimp only [V, hostOps0]; after_results <;> rfl

theorem V_v15 : (V m c main_v15 : Vc 256) = extractStridedSlice S256 ![1] (arg18 m c) Cert.KernelIdeal.Facts₀.slices_S257_S256_1 := by
  dsimp only [V, hostOps0]; after_results <;> rfl

theorem V_v16 : (V m c main_v16 : Vc 1) = extractStridedSlice S1 ![0] (arg18 m c) Cert.KernelIdeal.Facts₀.slices_S257_S1_0 := by
  dsimp only [V, hostOps0]; after_results <;> rfl

theorem V_v18 : (V m c main_v18 : Mat 27 256) = extractStridedSlice S27x256 ![0, 0] (arg19 m c) Cert.KernelIdeal.Facts₀.slices_S283x256_S27x256_0_0 := by
  dsimp only [V, hostOps0]; after_results <;> rfl

theorem V_v20 : (V m c main_v20 : Mat 256 256) = extractStridedSlice S256x256 ![27, 0] (arg19 m c) Cert.KernelIdeal.Facts₀.slices_S283x256_S256x256_27_0 := by
  dsimp only [V, hostOps0]; after_results <;> rfl

theorem V_v21 : (V m c main_v21 : Mat 256 3) = arg21 m c := by
  dsimp only [V, hostOps0]; after_results <;> rfl

/-! ## Each staged array is seen whole at every grid point -/

theorem iblk1 (t : Fin cfg0.N) : (iblk m c 1 t : Mat 63 256) = arg1 m c := by
  have hz' : (fun a => win0_1.index t a * main_v0.ty.shape.size a) = fun _ => 0 := funext fun a => by fin_cases a <;> rfl
  exact (Memref.read_access_unit_zero (Elt Ideal) main_v0 hz' (fun a => by rw [congrFun hz' a]; simp) (V m c main_v0)).trans (V_v0 m c)

theorem iblk2 (t : Fin cfg0.N) : (iblk m c 2 t : Vc 256) = arg2 m c := by
  have hz' : (fun a => win0_2.index t a * main_arg2.ty.shape.size a) = fun _ => 0 := funext fun a => by fin_cases a <;> rfl
  exact (Memref.read_access_unit_zero (Elt Ideal) main_arg2 hz' (fun a => by rw [congrFun hz' a]; simp) (V m c main_arg2)).trans (V_main_arg2 m c)

theorem iblk3 (t : Fin cfg0.N) : (iblk m c 3 t : Mat 256 256) = arg3 m c := by
  have hz' : (fun a => win0_3.index t a * main_v1.ty.shape.size a) = fun _ => 0 := funext fun a => by fin_cases a <;> rfl
  exact (Memref.read_access_unit_zero (Elt Ideal) main_v1 hz' (fun a => by rw [congrFun hz' a]; simp) (V m c main_v1)).trans (V_v1 m c)

theorem iblk4 (t : Fin cfg0.N) : (iblk m c 4 t : Vc 256) = arg4 m c := by
  have hz' : (fun a => win0_4.index t a * main_arg4.ty.shape.size a) = fun _ => 0 := funext fun a => by fin_cases a <;> rfl
  exact (Memref.read_access_unit_zero (Elt Ideal) main_arg4 hz' (fun a => by rw [congrFun hz' a]; simp) (V m c main_arg4)).trans (V_main_arg4 m c)

theorem iblk5 (t : Fin cfg0.N) : (iblk m c 5 t : Mat 256 256) = arg5 m c := by
  have hz' : (fun a => win0_5.index t a * main_v2.ty.shape.size a) = fun _ => 0 := funext fun a => by fin_cases a <;> rfl
  exact (Memref.read_access_unit_zero (Elt Ideal) main_v2 hz' (fun a => by rw [congrFun hz' a]; simp) (V m c main_v2)).trans (V_v2 m c)

theorem iblk6 (t : Fin cfg0.N) : (iblk m c 6 t : Vc 256) = arg6 m c := by
  have hz' : (fun a => win0_6.index t a * main_arg6.ty.shape.size a) = fun _ => 0 := funext fun a => by fin_cases a <;> rfl
  exact (Memref.read_access_unit_zero (Elt Ideal) main_arg6 hz' (fun a => by rw [congrFun hz' a]; simp) (V m c main_arg6)).trans (V_main_arg6 m c)

theorem iblk7 (t : Fin cfg0.N) : (iblk m c 7 t : Mat 256 256) = arg7 m c := by
  have hz' : (fun a => win0_7.index t a * main_v3.ty.shape.size a) = fun _ => 0 := funext fun a => by fin_cases a <;> rfl
  exact (Memref.read_access_unit_zero (Elt Ideal) main_v3 hz' (fun a => by rw [congrFun hz' a]; simp) (V m c main_v3)).trans (V_v3 m c)

theorem iblk8 (t : Fin cfg0.N) : (iblk m c 8 t : Vc 256) = arg8 m c := by
  have hz' : (fun a => win0_8.index t a * main_arg8.ty.shape.size a) = fun _ => 0 := funext fun a => by fin_cases a <;> rfl
  exact (Memref.read_access_unit_zero (Elt Ideal) main_arg8 hz' (fun a => by rw [congrFun hz' a]; simp) (V m c main_arg8)).trans (V_main_arg8 m c)

theorem iblk9 (t : Fin cfg0.N) : (iblk m c 9 t : Mat 63 256) = extractStridedSlice S63x256 ![0, 0] (arg9 m c) Cert.KernelIdeal.Facts₀.slices_S319x256_S63x256_0_0 := by
  have hz' : (fun a => win0_9.index t a * main_v5.ty.shape.size a) = fun _ => 0 := funext fun a => by fin_cases a <;> rfl
  exact (Memref.read_access_unit_zero (Elt Ideal) main_v5 hz' (fun a => by rw [congrFun hz' a]; simp) (V m c main_v5)).trans (V_v5 m c)

theorem iblk10 (t : Fin cfg0.N) : (iblk m c 10 t : Mat 256 256) = extractStridedSlice S256x256 ![63, 0] (arg9 m c) Cert.KernelIdeal.Facts₀.slices_S319x256_S256x256_63_0 := by
  have hz' : (fun a => win0_10.index t a * main_v7.ty.shape.size a) = fun _ => 0 := funext fun a => by fin_cases a <;> rfl
  exact (Memref.read_access_unit_zero (Elt Ideal) main_v7 hz' (fun a => by rw [congrFun hz' a]; simp) (V m c main_v7)).trans (V_v7 m c)

theorem iblk11 (t : Fin cfg0.N) : (iblk m c 11 t : Vc 256) = arg10 m c := by
  have hz' : (fun a => win0_11.index t a * main_arg10.ty.shape.size a) = fun _ => 0 := funext fun a => by fin_cases a <;> rfl
  exact (Memref.read_access_unit_zero (Elt Ideal) main_arg10 hz' (fun a => by rw [congrFun hz' a]; simp) (V m c main_arg10)).trans (V_main_arg10 m c)

theorem iblk12 (t : Fin cfg0.N) : (iblk m c 12 t : Mat 256 256) = arg11 m c := by
  have hz' : (fun a => win0_12.index t a * main_v8.ty.shape.size a) = fun _ => 0 := funext fun a => by fin_cases a <;> rfl
  exact (Memref.read_access_unit_zero (Elt Ideal) main_v8 hz' (fun a => by rw [congrFun hz' a]; simp) (V m c main_v8)).trans (V_v8 m c)

theorem iblk13 (t : Fin cfg0.N) : (iblk m c 13 t : Vc 256) = arg12 m c := by
  have hz' : (fun a => win0_13.index t a * main_arg12.ty.shape.size a) = fun _ => 0 := funext fun a => by fin_cases a <;> rfl
  exact (Memref.read_access_unit_zero (Elt Ideal) main_arg12 hz' (fun a => by rw [congrFun hz' a]; simp) (V m c main_arg12)).trans (V_main_arg12 m c)

theorem iblk14 (t : Fin cfg0.N) : (iblk m c 14 t : Mat 256 256) = arg13 m c := by
  have hz' : (fun a => win0_14.index t a * main_v9.ty.shape.size a) = fun _ => 0 := funext fun a => by fin_cases a <;> rfl
  exact (Memref.read_access_unit_zero (Elt Ideal) main_v9 hz' (fun a => by rw [congrFun hz' a]; simp) (V m c main_v9)).trans (V_v9 m c)

theorem iblk15 (t : Fin cfg0.N) : (iblk m c 15 t : Vc 256) = arg14 m c := by
  have hz' : (fun a => win0_15.index t a * main_arg14.ty.shape.size a) = fun _ => 0 := funext fun a => by fin_cases a <;> rfl
  exact (Memref.read_access_unit_zero (Elt Ideal) main_arg14 hz' (fun a => by rw [congrFun hz' a]; simp) (V m c main_arg14)).trans (V_main_arg14 m c)

theorem iblk16 (t : Fin cfg0.N) : (iblk m c 16 t : Mat 256 256) = arg15 m c := by
  have hz' : (fun a => win0_16.index t a * main_v10.ty.shape.size a) = fun _ => 0 := funext fun a => by fin_cases a <;> rfl
  exact (Memref.read_access_unit_zero (Elt Ideal) main_v10 hz' (fun a => by rw [congrFun hz' a]; simp) (V m c main_v10)).trans (V_v10 m c)

theorem iblk17 (t : Fin cfg0.N) : (iblk m c 17 t : Vc 256) = arg16 m c := by
  have hz' : (fun a => win0_17.index t a * main_arg16.ty.shape.size a) = fun _ => 0 := funext fun a => by fin_cases a <;> rfl
  exact (Memref.read_access_unit_zero (Elt Ideal) main_arg16 hz' (fun a => by rw [congrFun hz' a]; simp) (V m c main_arg16)).trans (V_main_arg16 m c)

theorem iblk18 (t : Fin cfg0.N) : (iblk m c 18 t : Mat 256 256) = extractStridedSlice S256x256 ![0, 1] (arg17 m c) Cert.KernelIdeal.Facts₀.slices_S256x257_S256x256_0_1 := by
  have hz' : (fun a => win0_18.index t a * main_v12.ty.shape.size a) = fun _ => 0 := funext fun a => by fin_cases a <;> rfl
  exact (Memref.read_access_unit_zero (Elt Ideal) main_v12 hz' (fun a => by rw [congrFun hz' a]; simp) (V m c main_v12)).trans (V_v12 m c)

theorem iblk19 (t : Fin cfg0.N) : (iblk m c 19 t : Mat 256 1) = extractStridedSlice S256x1 ![0, 0] (arg17 m c) Cert.KernelIdeal.Facts₀.slices_S256x257_S256x1_0_0 := by
  have hz' : (fun a => win0_19.index t a * main_v14.ty.shape.size a) = fun _ => 0 := funext fun a => by fin_cases a <;> rfl
  exact (Memref.read_access_unit_zero (Elt Ideal) main_v14 hz' (fun a => by rw [congrFun hz' a]; simp) (V m c main_v14)).trans (V_v14 m c)

theorem iblk20 (t : Fin cfg0.N) : (iblk m c 20 t : Vc 256) = extractStridedSlice S256 ![1] (arg18 m c) Cert.KernelIdeal.Facts₀.slices_S257_S256_1 := by
  have hz' : (fun a => win0_20.index t a * main_v15.ty.shape.size a) = fun _ => 0 := funext fun a => by fin_cases a <;> rfl
  exact (Memref.read_access_unit_zero (Elt Ideal) main_v15 hz' (fun a => by rw [congrFun hz' a]; simp) (V m c main_v15)).trans (V_v15 m c)

theorem iblk21 (t : Fin cfg0.N) : (iblk m c 21 t : Vc 1) = extractStridedSlice S1 ![0] (arg18 m c) Cert.KernelIdeal.Facts₀.slices_S257_S1_0 := by
  have hz' : (fun a => win0_21.index t a * main_v16.ty.shape.size a) = fun _ => 0 := funext fun a => by fin_cases a <;> rfl
  exact (Memref.read_access_unit_zero (Elt Ideal) main_v16 hz' (fun a => by rw [congrFun hz' a]; simp) (V m c main_v16)).trans (V_v16 m c)

theorem iblk22 (t : Fin cfg0.N) : (iblk m c 22 t : Mat 27 256) = extractStridedSlice S27x256 ![0, 0] (arg19 m c) Cert.KernelIdeal.Facts₀.slices_S283x256_S27x256_0_0 := by
  have hz' : (fun a => win0_22.index t a * main_v18.ty.shape.size a) = fun _ => 0 := funext fun a => by fin_cases a <;> rfl
  exact (Memref.read_access_unit_zero (Elt Ideal) main_v18 hz' (fun a => by rw [congrFun hz' a]; simp) (V m c main_v18)).trans (V_v18 m c)

theorem iblk23 (t : Fin cfg0.N) : (iblk m c 23 t : Mat 256 256) = extractStridedSlice S256x256 ![27, 0] (arg19 m c) Cert.KernelIdeal.Facts₀.slices_S283x256_S256x256_27_0 := by
  have hz' : (fun a => win0_23.index t a * main_v20.ty.shape.size a) = fun _ => 0 := funext fun a => by fin_cases a <;> rfl
  exact (Memref.read_access_unit_zero (Elt Ideal) main_v20 hz' (fun a => by rw [congrFun hz' a]; simp) (V m c main_v20)).trans (V_v20 m c)

theorem iblk24 (t : Fin cfg0.N) : (iblk m c 24 t : Vc 256) = arg20 m c := by
  have hz' : (fun a => win0_24.index t a * main_arg20.ty.shape.size a) = fun _ => 0 := funext fun a => by fin_cases a <;> rfl
  exact (Memref.read_access_unit_zero (Elt Ideal) main_arg20 hz' (fun a => by rw [congrFun hz' a]; simp) (V m c main_arg20)).trans (V_main_arg20 m c)

theorem iblk25 (t : Fin cfg0.N) : (iblk m c 25 t : Mat 256 3) = arg21 m c := by
  have hz' : (fun a => win0_25.index t a * main_v21.ty.shape.size a) = fun _ => 0 := funext fun a => by fin_cases a <;> rfl
  exact (Memref.read_access_unit_zero (Elt Ideal) main_v21 hz' (fun a => by rw [congrFun hz' a]; simp) (V m c main_v21)).trans (V_v21 m c)

theorem iblk26 (t : Fin cfg0.N) : (iblk m c 26 t : Vc 3) = arg22 m c := by
  have hz' : (fun a => win0_26.index t a * main_arg22.ty.shape.size a) = fun _ => 0 := funext fun a => by fin_cases a <;> rfl
  exact (Memref.read_access_unit_zero (Elt Ideal) main_arg22 hz' (fun a => by rw [congrFun hz' a]; simp) (V m c main_arg22)).trans (V_main_arg22 m c)

/-! ## The cut arrays, entry by entry -/

theorem fld9 (t : Fin cfg0.N) :
    cur (iblk m c 9 t : Mat 63 256) = fun k j => arg9 m c (ix2 (⟨k.val, by omega⟩ : Fin 319) j) := by
  rw [iblk9]; funext k j
  exact slice2_axis0_apply 0 (arg9 m c) _ k j ⟨k.val, by omega⟩ (Nat.zero_add _).symm

theorem fld10 (t : Fin cfg0.N) :
    cur (iblk m c 10 t : Mat 256 256) = fun k j => arg9 m c (ix2 (⟨63 + k.val, by omega⟩ : Fin 319) j) := by
  rw [iblk10]; funext k j
  exact slice2_axis0_apply 63 (arg9 m c) _ k j ⟨63 + k.val, by omega⟩ rfl

theorem fld18 (t : Fin cfg0.N) :
    cur (iblk m c 18 t : Mat 256 256) = fun k j => arg17 m c (ix2 k (⟨1 + j.val, by omega⟩ : Fin 257)) := by
  rw [iblk18]; funext k j
  exact slice2_axis1_apply 1 (arg17 m c) _ k j ⟨1 + j.val, by omega⟩ rfl

theorem fld19 (t : Fin cfg0.N) :
    cur (iblk m c 19 t : Mat 256 1) = fun k j => arg17 m c (ix2 k (⟨j.val, by omega⟩ : Fin 257)) := by
  rw [iblk19]; funext k j
  exact slice2_axis1_apply 0 (arg17 m c) _ k j ⟨j.val, by omega⟩ (Nat.zero_add _).symm

theorem fld20 (t : Fin cfg0.N) :
    cur1 (iblk m c 20 t : Vc 256) = fun j => arg18 m c (ix1 (⟨1 + j.val, by omega⟩ : Fin 257)) := by
  rw [iblk20]; funext j
  exact extractStridedSlice_apply ![1] (arg18 m c) _ (ix1 j) (ix1 (⟨1 + j.val, by omega⟩ : Fin 257))
    (fun a => match a with | ⟨0, _⟩ => rfl)

theorem fld21 (t : Fin cfg0.N) :
    cur1 (iblk m c 21 t : Vc 1) = fun j => arg18 m c (ix1 (⟨j.val, by omega⟩ : Fin 257)) := by
  rw [iblk21]; funext j
  exact extractStridedSlice_apply ![0] (arg18 m c) _ (ix1 j) (ix1 (⟨j.val, by omega⟩ : Fin 257))
    (fun a => match a with | ⟨0, _⟩ => (Nat.zero_add _).symm)

theorem fld22 (t : Fin cfg0.N) :
    cur (iblk m c 22 t : Mat 27 256) = fun k j => arg19 m c (ix2 (⟨k.val, by omega⟩ : Fin 283) j) := by
  rw [iblk22]; funext k j
  exact slice2_axis0_apply 0 (arg19 m c) _ k j ⟨k.val, by omega⟩ (Nat.zero_add _).symm

theorem fld23 (t : Fin cfg0.N) :
    cur (iblk m c 23 t : Mat 256 256) = fun k j => arg19 m c (ix2 (⟨27 + k.val, by omega⟩ : Fin 283) j) := by
  rw [iblk23]; funext k j
  exact slice2_axis0_apply 27 (arg19 m c) _ k j ⟨27 + k.val, by omega⟩ rfl

/-- The weights the body's blocks hold are, at every grid point, the weights the argument arrays give. -/
theorem wts_eq (t : Fin cfg0.N) :
    wtsOfBlocks (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
      = wtsOfArgs (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c) (arg20 m c) (arg21 m c) (arg22 m c) := by
  unfold wtsOfBlocks wtsOfArgs
  rw [fld9 m c t, fld10 m c t, fld18 m c t, fld19 m c t, fld20 m c t, fld21 m c t, fld22 m c t, fld23 m c t,
    iblk1 m c t, iblk2 m c t, iblk3 m c t, iblk4 m c t, iblk5 m c t, iblk6 m c t, iblk7 m c t, iblk8 m c t,
    iblk11 m c t, iblk12 m c t, iblk13 m c t, iblk14 m c t, iblk15 m c t, iblk16 m c t, iblk17 m c t,
    iblk24 m c t, iblk25 m c t, iblk26 m c t]

end Cert.Nerf

end
-- ==== Proof.KFinal.lean ====
/-
  From blocks to the whole result array.

  At grid point `t` the body sees rows `2048 t … 2048 t + 2047` of the input and writes back the same rows of the
  result; row `p` of what it writes is the row function of row `p` of what it sees, that is, of row
  `2048 t + p` of the input.  So what point `t` writes back is block `t` of the specification's array.  The 64
  blocks tile the result's 131072 rows (row `r` lies in block `r / 2048`), so after the run the result array is
  the specification's array.
-/
import proofs.«129799_j46471546142968_2_alg».proof.Proof.KBlocks
import proofs.«129799_j46471546142968_2_alg».proof.Proof.ValueKI

noncomputable section

namespace Cert.Nerf

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.GenP

variable (m : (ℓ : Loc nD τ sig) → Buf (Elt Ideal) ℓ) (c : Dev nD)

theorem hz2 : (![0, 0] : Fin 2 → Nat) = fun _ => 0 := funext fun a => by fin_cases a <;> rfl
theorem hz1 : (![0] : Fin 1 → Nat) = fun _ => 0 := funext fun a => by fin_cases a <;> rfl

/-- The index maps of the input rows' window and of the result's window, decided over the 64 grid points: block
    `t` along the rows, block 0 along the columns. -/
theorem idx_facts : ∀ t : Fin cfg0.N, win0_0.index t (0 : Fin 2) = t.val ∧ win0_0.index t (1 : Fin 2) = 0
    ∧ win0_27.index t (0 : Fin 2) = t.val ∧ win0_27.index t (1 : Fin 2) = 0 :=
  (by decide +kernel : ∀ t : Fin grid0.N, win0_0.index t (0 : Fin 2) = t.val ∧ win0_0.index t (1 : Fin 2) = 0
    ∧ win0_27.index t (0 : Fin 2) = t.val ∧ win0_27.index t (1 : Fin 2) = 0)

theorem t_lt (t : Fin cfg0.N) : t.val < 64 := by
  have h := t.isLt
  have hN : cfg0.N = 64 := N_0
  omega

/-- Row `p` of block `t` is row `2048 t + p` of the array. -/
def rowIdx (t : Fin cfg0.N) (p : Fin 2048) : Fin 131072 :=
  ⟨t.val * 2048 + p.val, by have := t_lt t; have := p.isLt; omega⟩

/-- The block of input rows at point `t`, entry by entry. -/
theorem iblk0_apply (t : Fin cfg0.N) (p : Fin 2048) (k : Fin 90) :
    (iblk m c 0 t : Mat 2048 90) (ix2 p k) = arg0 m c (ix2 (rowIdx t p) k) := by
  obtain ⟨e0, e1, -, -⟩ := idx_facts t
  unfold iblk
  rw [View.read_apply]
  show V m c main_arg0 _ = _
  rw [V_main_arg0]
  refine congrArg (arg0 m c) ?_
  funext a
  apply Fin.ext
  match a with
  | ⟨0, _⟩ =>
    show win0_0.index t (0 : Fin 2) * 2048 + 1 * p.val = t.val * 2048 + p.val
    rw [e0]; omega
  | ⟨1, _⟩ =>
    show win0_0.index t (1 : Fin 2) * 90 + 1 * k.val = k.val
    rw [e1]; omega

/-- The row function depends on the row and the column only through their values. -/
theorem rowOut_congr (W : Wts) (x x' : Fin 90 → EReal) (q q' : Fin 4) (hx : x = x') (hq : q = q') :
    rowOut W x q = rowOut W x' q' := by
  subst hx hq; rfl

/-- The body's stored block at any index of the block (not only one written by coordinates). -/
theorem block_at (x0 : FVec Ideal S2048x90 .f32) (x1 : FVec Ideal S63x256 .bf16) (x2 : FVec Ideal S256 .f32)
    (x3 : FVec Ideal S256x256 .bf16) (x4 : FVec Ideal S256 .f32) (x5 : FVec Ideal S256x256 .bf16)
    (x6 : FVec Ideal S256 .f32) (x7 : FVec Ideal S256x256 .bf16) (x8 : FVec Ideal S256 .f32)
    (x9 : FVec Ideal S63x256 .bf16) (x10 : FVec Ideal S256x256 .bf16) (x11 : FVec Ideal S256 .f32)
    (x12 : FVec Ideal S256x256 .bf16) (x13 : FVec Ideal S256 .f32) (x14 : FVec Ideal S256x256 .bf16)
    (x15 : FVec Ideal S256 .f32) (x16 : FVec Ideal S256x256 .bf16) (x17 : FVec Ideal S256 .f32)
    (x18 : FVec Ideal S256x256 .bf16) (x19 : FVec Ideal S256x1 .bf16) (x20 : FVec Ideal S256 .f32)
    (x21 : FVec Ideal S1 .f32) (x22 : FVec Ideal S27x256 .bf16) (x23 : FVec Ideal S256x256 .bf16)
    (x24 : FVec Ideal S256 .f32) (x25 : FVec Ideal S256x3 .bf16) (x26 : FVec Ideal S3 .f32) (y : S2048x4.Idx) :
    k0_pay1 (F := Ideal)
        (k0_pay8 (k0_pay6 (k0_pay3 x0) x8 (k0_pay5 x0 x1 x2 x3 x4 x5 x6 x7) x11 x9 x10 x12 x13 x14 x15) x16 x17 x19 x21)
        (k0_pay9 (k0_pay4 x0) (k0_pay6 (k0_pay3 x0) x8 (k0_pay5 x0 x1 x2 x3 x4 x5 x6 x7) x11 x9 x10 x12 x13 x14 x15)
          x16 x17 x18 x20 x24 x22 x23) x25 x26 y
      = rowOut (wtsOfBlocks x1 x2 x3 x4 x5 x6 x7 x8 x9 x10 x11 x12 x13 x14 x15 x16 x17 x18 x19 x20 x21 x22 x23 x24 x25 x26)
          (fun k => x0 (ix2 (⟨(y 0).val, idx2_lt0 y⟩ : Fin 2048) k)) ⟨(y 1).val, idx2_lt1 y⟩ := by
  have hy : y = ix2 (⟨(y 0).val, idx2_lt0 y⟩ : Fin 2048) (⟨(y 1).val, idx2_lt1 y⟩ : Fin 4) :=
    funext fun a => match a with | ⟨0, _⟩ => rfl | ⟨1, _⟩ => rfl
  refine (congrArg _ hy).trans ?_
  exact block_row x0 x1 x2 x3 x4 x5 x6 x7 x8 x9 x10 x11 x12 x13 x14 x15 x16 x17 x18 x19 x20 x21 x22 x23 x24 x25 x26 _ _

/-- WHAT POINT `t` WRITES BACK is block `t` of the specification's array of the argument arrays. -/
theorem flushed_eq (t : Fin cfg0.N) :
    (dats m 0 c).flushed 27 t = ((cfg0.win 27).blk t).view.read (Elt Ideal) (G (arg0 m c) (wtsOfArgs (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c) (arg20 m c) (arg21 m c) (arg22 m c))) := by
  show (cfg0.win 27).cut (grid0.coords t) ((dats m 0 c).after 27 t) = _
  rw [after0_27]
  unfold out0_27
  rw [View.canon_unit_zero hz2]
  simp only [View.ld_unit_zero (S := S2048x90) hz2, View.ld_unit_zero (S := S63x256) hz2,
    View.ld_unit_zero (S := S256) hz1, View.ld_unit_zero (S := S256x256) hz2, View.ld_unit_zero (S := S256x1) hz2,
    View.ld_unit_zero (S := S1) hz1, View.ld_unit_zero (S := S27x256) hz2, View.ld_unit_zero (S := S256x3) hz2,
    View.ld_unit_zero (S := S3) hz1]
  obtain ⟨-, -, e0, e1⟩ := idx_facts t
  funext y
  refine (block_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) ((cfg0.win 27).xinj (grid0.coords t) y)).trans ?_
  rw [wts_eq m c t, View.read_apply]
  refine rowOut_congr _ _ _ _ _ (funext fun k => ?_) (Fin.ext ?_)
  · refine (iblk0_apply m c t _ k).trans (congrArg (fun r => arg0 m c (ix2 r k)) (Fin.ext ?_))
    show t.val * 2048 + (y 0).val = win0_27.index t (0 : Fin 2) * 2048 + 1 * (y 0).val
    rw [e0]; omega
  · show (y 1).val = win0_27.index t (1 : Fin 2) * 4 + 1 * (y 1).val
    rw [e1]; omega

/-- An index of the result array is in point `t`'s block iff each coordinate is in the block's range on its axis. -/
theorem mem_blk (t : Fin cfg0.N) (i : S131072x4.Idx) :
    i ∈ ((cfg0.win 27).blk t).view.set ↔ ∀ a : Fin 2, win0_27.index t a * S2048x4.size a ≤ (i a).val
      ∧ (i a).val < win0_27.index t a * S2048x4.size a + S2048x4.size a := by
  show i ∈ ((View.whole main_v22).slice (win0_27.rect t)).set ↔ _
  rw [View.set_slice_whole, Rect.mem_set_unit]
  exact Iff.rfl

/-- Every row of the result lies in the block of the point numbered by its quotient by 2048. -/
theorem cover (i : S131072x4.Idx) :
    ∃ t : Fin cfg0.N, (cfg0.win 27).flush t = true ∧ i ∈ ((cfg0.win 27).blk t).view.set := by
  have hi0 : (i 0).val < 131072 := (i 0).isLt
  have hi1 : (i 1).val < 4 := (i 1).isLt
  have hN : cfg0.N = 64 := N_0
  let t : Fin cfg0.N := ⟨(i 0).val / 2048, by rw [hN]; omega⟩
  obtain ⟨-, -, e0, e1⟩ := idx_facts t
  have ht : t.val = (i 0).val / 2048 := rfl
  refine ⟨t, flush0_27 t, ?_⟩
  rw [mem_blk]
  intro a
  match a with
  | ⟨0, _⟩ =>
    show win0_27.index t (0 : Fin 2) * 2048 ≤ (i 0).val ∧ (i 0).val < win0_27.index t (0 : Fin 2) * 2048 + 2048
    rw [e0, ht]; omega
  | ⟨1, _⟩ =>
    show win0_27.index t (1 : Fin 2) * 4 ≤ (i 1).val ∧ (i 1).val < win0_27.index t (1 : Fin 2) * 4 + 4
    rw [e1]; omega

/-- THE RESULT ARRAY after the run is the specification's array of the argument arrays. -/
theorem final : (dats m 0 c).arrAt 27 cfg0.N = G (arg0 m c) (wtsOfArgs (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c) (arg20 m c) (arg21 m c) (arg22 m c)) :=
  (dats m 0 c).arrAt_eq_of_cover 27 _ (fun t _ => flushed_eq m c t) cover

/-- The kernel's run, read: the result at the specification's array, the arguments unchanged. -/
theorem krun (ρ : Dev nD → PrngReg) :
    θ_run defs (onTc (τ := τ) (main (F := Ideal))) ⟨m, fun _ => 0, ρ⟩ fun r => ∀ c : Dev nD,
      r.2.mem ((c : Thread nD τ).loc main_v22) = G (arg0 m c) (wtsOfArgs (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c) (arg20 m c) (arg21 m c) (arg22 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => ⟨(h c).1.trans (final m c), (h c).2⟩)
    (Cert.KernelIdeal.ValueP.run_blocks m ρ)

end Cert.Nerf

end
-- ==== Proof.RefValue.lean ====
/-
  The reference program computes the row network of the specification.

  The reference is an eleven-layer network applied to each of the 131072 rows of the input.  Each of its
  operations is read at an index `(r, j)`: a product with a matrix is the sum over the fan-in of the products,
  a bias is a broadcast along the rows, the rectifier is the maximum with a broadcast of the zero word, a slice
  reads its operand at a shifted column, and a concatenation along the columns reads its first piece below the
  first piece's width and its second piece, the width less, from there on.  Layer by layer the value at `(r, j)`
  is the specification's row function of row `r`, at entry `j`.  The two layers fed by a concatenation have
  their sum over the joined fan-in split into the sum over the first piece and the sum over the second.
-/
import proofs.«129799_j46471546142968_2_alg».proof.Proof.Spec
import proofs.«129799_j46471546142968_2_alg».proof.Proof.Gen.ReferenceIdeal.Read

noncomputable section

namespace Cert.Nerf.Ref

open Cert.ReferenceIdeal Cert.ReferenceIdeal.Read Cert.Nerf Idealize.ShloMosaic Idealize.ShloMosaic.ValueIdx

variable (a0 : (⟨S131072x90, .f32⟩ : BufTy).Contents (Elt Ideal))
  (a1 : (⟨S63x256, .f32⟩ : BufTy).Contents (Elt Ideal))
  (a2 : (⟨S256, .f32⟩ : BufTy).Contents (Elt Ideal))
  (a3 : (⟨S256x256, .f32⟩ : BufTy).Contents (Elt Ideal))
  (a4 : (⟨S256, .f32⟩ : BufTy).Contents (Elt Ideal))
  (a5 : (⟨S256x256, .f32⟩ : BufTy).Contents (Elt Ideal))
  (a6 : (⟨S256, .f32⟩ : BufTy).Contents (Elt Ideal))
  (a7 : (⟨S256x256, .f32⟩ : BufTy).Contents (Elt Ideal))
  (a8 : (⟨S256, .f32⟩ : BufTy).Contents (Elt Ideal))
  (a9 : (⟨S319x256, .f32⟩ : BufTy).Contents (Elt Ideal))
  (a10 : (⟨S256, .f32⟩ : BufTy).Contents (Elt Ideal))
  (a11 : (⟨S256x256, .f32⟩ : BufTy).Contents (Elt Ideal))
  (a12 : (⟨S256, .f32⟩ : BufTy).Contents (Elt Ideal))
  (a13 : (⟨S256x256, .f32⟩ : BufTy).Contents (Elt Ideal))
  (a14 : (⟨S256, .f32⟩ : BufTy).Contents (Elt Ideal))
  (a15 : (⟨S256x256, .f32⟩ : BufTy).Contents (Elt Ideal))
  (a16 : (⟨S256, .f32⟩ : BufTy).Contents (Elt Ideal))
  (a17 : (⟨S256x257, .f32⟩ : BufTy).Contents (Elt Ideal))
  (a18 : (⟨S257, .f32⟩ : BufTy).Contents (Elt Ideal))
  (a19 : (⟨S283x256, .f32⟩ : BufTy).Contents (Elt Ideal))
  (a20 : (⟨S256, .f32⟩ : BufTy).Contents (Elt Ideal))
  (a21 : (⟨S256x3, .f32⟩ : BufTy).Contents (Elt Ideal))
  (a22 : (⟨S3, .f32⟩ : BufTy).Contents (Elt Ideal))

/-- The slice of the position channels reads the input at the same column. -/
theorem v0_at (r : Fin 131072) (k : Fin 63) :
    val_main_v0 (F := Ideal) a0 (ix2 r k) = a0 (ix2 r (⟨k.val, by omega⟩ : Fin 90)) := by
  rw [val_main_v0_apply]
  exact congrArg a0 (funext fun a => match a with | ⟨0, _⟩ => rfl | ⟨1, _⟩ => rfl)

/-- The slice of the view channels reads the input 63 columns further. -/
theorem v1_at (r : Fin 131072) (k : Fin 27) :
    val_main_v1 (F := Ideal) a0 (ix2 r k) = a0 (ix2 r (⟨63 + k.val, by omega⟩ : Fin 90)) := by
  rw [val_main_v1_apply]
  exact congrArg a0 (funext fun a => match a with | ⟨0, _⟩ => rfl | ⟨1, _⟩ => rfl)

/-- The first layer at `(r, j)`: the rectified sum over the 63 position channels plus the bias. -/
theorem v6_at (r : Fin 131072) (j : Fin 256) :
    val_main_v6 (F := Ideal) a0 a1 a2 (ix2 r j) = hid1 (wtsOfArgs a1 a2 a3 a4 a5 a6 a7 a8 a9 a10 a11 a12 a13 a14 a15 a16 a17 a18 a19 a20 a21 a22) (fun c => a0 (ix2 r c)) j := by
  rw [val_main_v6_apply, val_main_v5_apply, val_main_v2_apply, val_main_v4_apply, val_main_v3_apply, val_main_call0_v0_apply, val_main_call0_cst_apply]
  have el : ∀ k : Fin 63, lidx_main_v2 (ix2 r j) k = ix2 r k := fun k => funext fun a => match a with | ⟨0, _⟩ => rfl | ⟨1, _⟩ => rfl
  have er : ∀ k : Fin 63, ridx_main_v2 (ix2 r j) k = ix2 k j := fun k => funext fun a => match a with | ⟨0, _⟩ => rfl | ⟨1, _⟩ => rfl
  have eb : idx_main_v3 (idx_main_v4 (ix2 r j)) = ix1 j := funext fun a => match a with | ⟨0, _⟩ => rfl
  simp only [el, er, eb]
  simp only [v0_at]
  rfl

/-- The second layer at `(r, j)`. -/
theorem v11_at (r : Fin 131072) (j : Fin 256) :
    val_main_v11 (F := Ideal) a0 a1 a2 a3 a4 (ix2 r j) = hid2 (wtsOfArgs a1 a2 a3 a4 a5 a6 a7 a8 a9 a10 a11 a12 a13 a14 a15 a16 a17 a18 a19 a20 a21 a22) (fun c => a0 (ix2 r c)) j := by
  rw [val_main_v11_apply, val_main_v10_apply, val_main_v7_apply, val_main_v9_apply, val_main_v8_apply, val_main_call1_v0_apply, val_main_call1_cst_apply]
  have el : ∀ k : Fin 256, lidx_main_v7 (ix2 r j) k = ix2 r k := fun k => funext fun a => match a with | ⟨0, _⟩ => rfl | ⟨1, _⟩ => rfl
  have er : ∀ k : Fin 256, ridx_main_v7 (ix2 r j) k = ix2 k j := fun k => funext fun a => match a with | ⟨0, _⟩ => rfl | ⟨1, _⟩ => rfl
  have eb : idx_main_v8 (idx_main_v9 (ix2 r j)) = ix1 j := funext fun a => match a with | ⟨0, _⟩ => rfl
  simp only [el, er, eb]
  simp only [v6_at a0 a1 a2 a3 a4 a5 a6 a7 a8 a9 a10 a11 a12 a13 a14 a15 a16 a17 a18 a19 a20 a21 a22]
  rfl

/-- The third layer at `(r, j)`. -/
theorem v16_at (r : Fin 131072) (j : Fin 256) :
    val_main_v16 (F := Ideal) a0 a1 a2 a3 a4 a5 a6 (ix2 r j) = hid3 (wtsOfArgs a1 a2 a3 a4 a5 a6 a7 a8 a9 a10 a11 a12 a13 a14 a15 a16 a17 a18 a19 a20 a21 a22) (fun c => a0 (ix2 r c)) j := by
  rw [val_main_v16_apply, val_main_v15_apply, val_main_v12_apply, val_main_v14_apply, val_main_v13_apply, val_main_call2_v0_apply, val_main_call2_cst_apply]
  have el : ∀ k : Fin 256, lidx_main_v12 (ix2 r j) k = ix2 r k := fun k => funext fun a => match a with | ⟨0, _⟩ => rfl | ⟨1, _⟩ => rfl
  have er : ∀ k : Fin 256, ridx_main_v12 (ix2 r j) k = ix2 k j := fun k => funext fun a => match a with | ⟨0, _⟩ => rfl | ⟨1, _⟩ => rfl
  have eb : idx_main_v13 (idx_main_v14 (ix2 r j)) = ix1 j := funext fun a => match a with | ⟨0, _⟩ => rfl
  simp only [el, er, eb]
  simp only [v11_at a0 a1 a2 a3 a4 a5 a6 a7 a8 a9 a10 a11 a12 a13 a14 a15 a16 a17 a18 a19 a20 a21 a22]
  rfl

/-- The fourth layer at `(r, j)`. -/
theorem v21_at (r : Fin 131072) (j : Fin 256) :
    val_main_v21 (F := Ideal) a0 a1 a2 a3 a4 a5 a6 a7 a8 (ix2 r j) = hid4 (wtsOfArgs a1 a2 a3 a4 a5 a6 a7 a8 a9 a10 a11 a12 a13 a14 a15 a16 a17 a18 a19 a20 a21 a22) (fun c => a0 (ix2 r c)) j := by
  rw [val_main_v21_apply, val_main_v20_apply, val_main_v17_apply, val_main_v19_apply, val_main_v18_apply, val_main_call3_v0_apply, val_main_call3_cst_apply]
  have el : ∀ k : Fin 256, lidx_main_v17 (ix2 r j) k = ix2 r k := fun k => funext fun a => match a with | ⟨0, _⟩ => rfl | ⟨1, _⟩ => rfl
  have er : ∀ k : Fin 256, ridx_main_v17 (ix2 r j) k = ix2 k j := fun k => funext fun a => match a with | ⟨0, _⟩ => rfl | ⟨1, _⟩ => rfl
  have eb : idx_main_v18 (idx_main_v19 (ix2 r j)) = ix1 j := funext fun a => match a with | ⟨0, _⟩ => rfl
  simp only [el, er, eb]
  simp only [v16_at a0 a1 a2 a3 a4 a5 a6 a7 a8 a9 a10 a11 a12 a13 a14 a15 a16 a17 a18 a19 a20 a21 a22]
  rfl

/-- The joined row of position channels and fourth-layer values, below column 63, is the position channels. -/
theorem v22_left (r : Fin 131072) (k : Fin 63) :
    val_main_v22 (F := Ideal) a0 a1 a2 a3 a4 a5 a6 a7 a8 (ix2 r (⟨k.val, by omega⟩ : Fin 319))
      = val_main_v0 (F := Ideal) a0 (ix2 r k) := by
  unfold val_main_v22
  refine concatenate_pair_apply_left (t := S131072x319) (s₁ := S131072x63) (s₂ := S131072x256) 1 _ _ _
    (ix2 r (⟨k.val, by omega⟩ : Fin 319)) rfl (ix2 r k) ?_
  intro b
  match b with
  | ⟨0, _⟩ => rfl
  | ⟨1, _⟩ => rfl

/-- The joined row of position channels and fourth-layer values, from column 63 on, is the fourth layer 63 columns back. -/
theorem v22_right (r : Fin 131072) (k : Fin 256) :
    val_main_v22 (F := Ideal) a0 a1 a2 a3 a4 a5 a6 a7 a8 (ix2 r (⟨63 + k.val, by omega⟩ : Fin 319))
      = val_main_v21 (F := Ideal) a0 a1 a2 a3 a4 a5 a6 a7 a8 (ix2 r k) := by
  unfold val_main_v22
  refine concatenate_pair_apply_right (t := S131072x319) (s₁ := S131072x63) (s₂ := S131072x256) 1 _ _ _
    (ix2 r (⟨63 + k.val, by omega⟩ : Fin 319)) rfl rfl (ix2 r k) ?_ ?_
  · intro b hb
    match b, hb with
    | ⟨0, _⟩, _ => rfl
    | ⟨1, _⟩, hb => exact absurd rfl hb
  · show k.val + 63 = 63 + k.val
    omega

/-- The fifth layer at `(r, j)`: the sum over the 319 joined channels is the sum over the 63 position channels plus the sum over the 256 fourth-layer values. -/
theorem v27_at (r : Fin 131072) (j : Fin 256) :
    val_main_v27 (F := Ideal) a0 a1 a2 a3 a4 a5 a6 a7 a8 a9 a10 (ix2 r j) = sec1 (wtsOfArgs a1 a2 a3 a4 a5 a6 a7 a8 a9 a10 a11 a12 a13 a14 a15 a16 a17 a18 a19 a20 a21 a22) (fun c => a0 (ix2 r c)) j := by
  rw [val_main_v27_apply, val_main_v26_apply, val_main_v23_apply, val_main_v25_apply, val_main_v24_apply, val_main_call4_v0_apply, val_main_call4_cst_apply]
  have el : ∀ k : Fin 319, lidx_main_v23 (ix2 r j) k = ix2 r k := fun k => funext fun a => match a with | ⟨0, _⟩ => rfl | ⟨1, _⟩ => rfl
  have er : ∀ k : Fin 319, ridx_main_v23 (ix2 r j) k = ix2 k j := fun k => funext fun a => match a with | ⟨0, _⟩ => rfl | ⟨1, _⟩ => rfl
  have eb : idx_main_v24 (idx_main_v25 (ix2 r j)) = ix1 j := funext fun a => match a with | ⟨0, _⟩ => rfl
  simp only [el, er, eb]
  rw [sum_split 63 256 319 rfl]
  simp only [v22_left, v22_right, v0_at, v21_at a0 a1 a2 a3 a4 a5 a6 a7 a8 a9 a10 a11 a12 a13 a14 a15 a16 a17 a18 a19 a20 a21 a22]
  rfl

/-- The sixth layer at `(r, j)`. -/
theorem v32_at (r : Fin 131072) (j : Fin 256) :
    val_main_v32 (F := Ideal) a0 a1 a2 a3 a4 a5 a6 a7 a8 a9 a10 a11 a12 (ix2 r j) = sec2 (wtsOfArgs a1 a2 a3 a4 a5 a6 a7 a8 a9 a10 a11 a12 a13 a14 a15 a16 a17 a18 a19 a20 a21 a22) (fun c => a0 (ix2 r c)) j := by
  rw [val_main_v32_apply, val_main_v31_apply, val_main_v28_apply, val_main_v30_apply, val_main_v29_apply, val_main_call5_v0_apply, val_main_call5_cst_apply]
  have el : ∀ k : Fin 256, lidx_main_v28 (ix2 r j) k = ix2 r k := fun k => funext fun a => match a with | ⟨0, _⟩ => rfl | ⟨1, _⟩ => rfl
  have er : ∀ k : Fin 256, ridx_main_v28 (ix2 r j) k = ix2 k j := fun k => funext fun a => match a with | ⟨0, _⟩ => rfl | ⟨1, _⟩ => rfl
  have eb : idx_main_v29 (idx_main_v30 (ix2 r j)) = ix1 j := funext fun a => match a with | ⟨0, _⟩ => rfl
  simp only [el, er, eb]
  simp only [v27_at a0 a1 a2 a3 a4 a5 a6 a7 a8 a9 a10 a11 a12 a13 a14 a15 a16 a17 a18 a19 a20 a21 a22]
  rfl

/-- The seventh layer at `(r, j)`. -/
theorem v37_at (r : Fin 131072) (j : Fin 256) :
    val_main_v37 (F := Ideal) a0 a1 a2 a3 a4 a5 a6 a7 a8 a9 a10 a11 a12 a13 a14 (ix2 r j) = sec3 (wtsOfArgs a1 a2 a3 a4 a5 a6 a7 a8 a9 a10 a11 a12 a13 a14 a15 a16 a17 a18 a19 a20 a21 a22) (fun c => a0 (ix2 r c)) j := by
  rw [val_main_v37_apply, val_main_v36_apply, val_main_v33_apply, val_main_v35_apply, val_main_v34_apply, val_main_call6_v0_apply, val_main_call6_cst_apply]
  have el : ∀ k : Fin 256, lidx_main_v33 (ix2 r j) k = ix2 r k := fun k => funext fun a => match a with | ⟨0, _⟩ => rfl | ⟨1, _⟩ => rfl
  have er : ∀ k : Fin 256, ridx_main_v33 (ix2 r j) k = ix2 k j := fun k => funext fun a => match a with | ⟨0, _⟩ => rfl | ⟨1, _⟩ => rfl
  have eb : idx_main_v34 (idx_main_v35 (ix2 r j)) = ix1 j := funext fun a => match a with | ⟨0, _⟩ => rfl
  simp only [el, er, eb]
  simp only [v32_at a0 a1 a2 a3 a4 a5 a6 a7 a8 a9 a10 a11 a12 a13 a14 a15 a16 a17 a18 a19 a20 a21 a22]
  rfl

/-- The eighth layer at `(r, j)`. -/
theorem v42_at (r : Fin 131072) (j : Fin 256) :
    val_main_v42 (F := Ideal) a0 a1 a2 a3 a4 a5 a6 a7 a8 a9 a10 a11 a12 a13 a14 a15 a16 (ix2 r j) = sec4 (wtsOfArgs a1 a2 a3 a4 a5 a6 a7 a8 a9 a10 a11 a12 a13 a14 a15 a16 a17 a18 a19 a20 a21 a22) (fun c => a0 (ix2 r c)) j := by
  rw [val_main_v42_apply, val_main_v41_apply, val_main_v38_apply, val_main_v40_apply, val_main_v39_apply, val_main_call7_v0_apply, val_main_call7_cst_apply]
  have el : ∀ k : Fin 256, lidx_main_v38 (ix2 r j) k = ix2 r k := fun k => funext fun a => match a with | ⟨0, _⟩ => rfl | ⟨1, _⟩ => rfl
  have er : ∀ k : Fin 256, ridx_main_v38 (ix2 r j) k = ix2 k j := fun k => funext fun a => match a with | ⟨0, _⟩ => rfl | ⟨1, _⟩ => rfl
  have eb : idx_main_v39 (idx_main_v40 (ix2 r j)) = ix1 j := funext fun a => match a with | ⟨0, _⟩ => rfl
  simp only [el, er, eb]
  simp only [v37_at a0 a1 a2 a3 a4 a5 a6 a7 a8 a9 a10 a11 a12 a13 a14 a15 a16 a17 a18 a19 a20 a21 a22]
  rfl

/-- The unrectified layer of width 257 at `(r, j)`: the sum over the eighth layer's values against column `j` of its matrix, plus entry `j` of its bias. -/
theorem v46_at (r : Fin 131072) (j : Fin 257) :
    val_main_v46 (F := Ideal) a0 a1 a2 a3 a4 a5 a6 a7 a8 a9 a10 a11 a12 a13 a14 a15 a16 a17 a18 (ix2 r j) = (∑ k : Fin 256, sec4 (wtsOfArgs a1 a2 a3 a4 a5 a6 a7 a8 a9 a10 a11 a12 a13 a14 a15 a16 a17 a18 a19 a20 a21 a22) (fun c => a0 (ix2 r c)) k * a17 (ix2 k j)) + a18 (ix1 j) := by
  rw [val_main_v46_apply, val_main_v43_apply, val_main_v45_apply, val_main_v44_apply]
  have el : ∀ k : Fin 256, lidx_main_v43 (ix2 r j) k = ix2 r k := fun k => funext fun a => match a with | ⟨0, _⟩ => rfl | ⟨1, _⟩ => rfl
  have er : ∀ k : Fin 256, ridx_main_v43 (ix2 r j) k = ix2 k j := fun k => funext fun a => match a with | ⟨0, _⟩ => rfl | ⟨1, _⟩ => rfl
  have eb : idx_main_v44 (idx_main_v45 (ix2 r j)) = ix1 j := funext fun a => match a with | ⟨0, _⟩ => rfl
  simp only [el, er, eb]
  simp only [v42_at a0 a1 a2 a3 a4 a5 a6 a7 a8 a9 a10 a11 a12 a13 a14 a15 a16 a17 a18 a19 a20 a21 a22]
  rfl

/-- Column 0 of the 257-wide layer is the density. -/
theorem v47_at (r : Fin 131072) (j : Fin 1) :
    val_main_v47 (F := Ideal) a0 a1 a2 a3 a4 a5 a6 a7 a8 a9 a10 a11 a12 a13 a14 a15 a16 a17 a18 (ix2 r j) = dens (wtsOfArgs a1 a2 a3 a4 a5 a6 a7 a8 a9 a10 a11 a12 a13 a14 a15 a16 a17 a18 a19 a20 a21 a22) (fun c => a0 (ix2 r c)) j := by
  rw [val_main_v47_apply]
  have e : idx_main_v47 (ix2 r j) = ix2 r (⟨j.val, by omega⟩ : Fin 257) := funext fun a => match a with | ⟨0, _⟩ => rfl | ⟨1, _⟩ => rfl
  rw [e, v46_at a0 a1 a2 a3 a4 a5 a6 a7 a8 a9 a10 a11 a12 a13 a14 a15 a16 a17 a18 a19 a20 a21 a22]
  rfl

/-- Columns 1 to 256 of the 257-wide layer are the features. -/
theorem v48_at (r : Fin 131072) (j : Fin 256) :
    val_main_v48 (F := Ideal) a0 a1 a2 a3 a4 a5 a6 a7 a8 a9 a10 a11 a12 a13 a14 a15 a16 a17 a18 (ix2 r j) = feat (wtsOfArgs a1 a2 a3 a4 a5 a6 a7 a8 a9 a10 a11 a12 a13 a14 a15 a16 a17 a18 a19 a20 a21 a22) (fun c => a0 (ix2 r c)) j := by
  rw [val_main_v48_apply]
  have e : idx_main_v48 (ix2 r j) = ix2 r (⟨1 + j.val, by omega⟩ : Fin 257) := funext fun a => match a with | ⟨0, _⟩ => rfl | ⟨1, _⟩ => rfl
  rw [e, v46_at a0 a1 a2 a3 a4 a5 a6 a7 a8 a9 a10 a11 a12 a13 a14 a15 a16 a17 a18 a19 a20 a21 a22]
  rfl

/-- The joined row of view channels and features, below column 27, is the view channels. -/
theorem v49_left (r : Fin 131072) (k : Fin 27) :
    val_main_v49 (F := Ideal) a0 a1 a2 a3 a4 a5 a6 a7 a8 a9 a10 a11 a12 a13 a14 a15 a16 a17 a18 (ix2 r (⟨k.val, by omega⟩ : Fin 283))
      = val_main_v1 (F := Ideal) a0 (ix2 r k) := by
  unfold val_main_v49
  refine concatenate_pair_apply_left (t := S131072x283) (s₁ := S131072x27) (s₂ := S131072x256) 1 _ _ _
    (ix2 r (⟨k.val, by omega⟩ : Fin 283)) rfl (ix2 r k) ?_
  intro b
  match b with
  | ⟨0, _⟩ => rfl
  | ⟨1, _⟩ => rfl

/-- The joined row of view channels and features, from column 27 on, is the features 27 columns back. -/
theorem v49_right (r : Fin 131072) (k : Fin 256) :
    val_main_v49 (F := Ideal) a0 a1 a2 a3 a4 a5 a6 a7 a8 a9 a10 a11 a12 a13 a14 a15 a16 a17 a18 (ix2 r (⟨27 + k.val, by omega⟩ : Fin 283))
      = val_main_v48 (F := Ideal) a0 a1 a2 a3 a4 a5 a6 a7 a8 a9 a10 a11 a12 a13 a14 a15 a16 a17 a18 (ix2 r k) := by
  unfold val_main_v49
  refine concatenate_pair_apply_right (t := S131072x283) (s₁ := S131072x27) (s₂ := S131072x256) 1 _ _ _
    (ix2 r (⟨27 + k.val, by omega⟩ : Fin 283)) rfl rfl (ix2 r k) ?_ ?_
  · intro b hb
    match b, hb with
    | ⟨0, _⟩, _ => rfl
    | ⟨1, _⟩, hb => exact absurd rfl hb
  · show k.val + 27 = 27 + k.val
    omega

/-- The colour head's hidden layer at `(r, j)`: the sum over the 283 joined channels is the sum over the 27 view channels plus the sum over the 256 features. -/
theorem v54_at (r : Fin 131072) (j : Fin 256) :
    val_main_v54 (F := Ideal) a0 a1 a2 a3 a4 a5 a6 a7 a8 a9 a10 a11 a12 a13 a14 a15 a16 a17 a18 a19 a20 (ix2 r j) = col (wtsOfArgs a1 a2 a3 a4 a5 a6 a7 a8 a9 a10 a11 a12 a13 a14 a15 a16 a17 a18 a19 a20 a21 a22) (fun c => a0 (ix2 r c)) j := by
  rw [val_main_v54_apply, val_main_v53_apply, val_main_v50_apply, val_main_v52_apply, val_main_v51_apply, val_main_call8_v0_apply, val_main_call8_cst_apply]
  have el : ∀ k : Fin 283, lidx_main_v50 (ix2 r j) k = ix2 r k := fun k => funext fun a => match a with | ⟨0, _⟩ => rfl | ⟨1, _⟩ => rfl
  have er : ∀ k : Fin 283, ridx_main_v50 (ix2 r j) k = ix2 k j := fun k => funext fun a => match a with | ⟨0, _⟩ => rfl | ⟨1, _⟩ => rfl
  have eb : idx_main_v51 (idx_main_v52 (ix2 r j)) = ix1 j := funext fun a => match a with | ⟨0, _⟩ => rfl
  simp only [el, er, eb]
  rw [sum_split 27 256 283 rfl]
  simp only [v49_left, v49_right, v1_at, v48_at a0 a1 a2 a3 a4 a5 a6 a7 a8 a9 a10 a11 a12 a13 a14 a15 a16 a17 a18 a19 a20 a21 a22]
  rfl

/-- The three colour outputs at `(r, j)`. -/
theorem v58_at (r : Fin 131072) (j : Fin 3) :
    val_main_v58 (F := Ideal) a0 a1 a2 a3 a4 a5 a6 a7 a8 a9 a10 a11 a12 a13 a14 a15 a16 a17 a18 a19 a20 a21 a22 (ix2 r j) = rgb (wtsOfArgs a1 a2 a3 a4 a5 a6 a7 a8 a9 a10 a11 a12 a13 a14 a15 a16 a17 a18 a19 a20 a21 a22) (fun c => a0 (ix2 r c)) j := by
  rw [val_main_v58_apply, val_main_v55_apply, val_main_v57_apply, val_main_v56_apply]
  have el : ∀ k : Fin 256, lidx_main_v55 (ix2 r j) k = ix2 r k := fun k => funext fun a => match a with | ⟨0, _⟩ => rfl | ⟨1, _⟩ => rfl
  have er : ∀ k : Fin 256, ridx_main_v55 (ix2 r j) k = ix2 k j := fun k => funext fun a => match a with | ⟨0, _⟩ => rfl | ⟨1, _⟩ => rfl
  have eb : idx_main_v56 (idx_main_v57 (ix2 r j)) = ix1 j := funext fun a => match a with | ⟨0, _⟩ => rfl
  simp only [el, er, eb]
  simp only [v54_at a0 a1 a2 a3 a4 a5 a6 a7 a8 a9 a10 a11 a12 a13 a14 a15 a16 a17 a18 a19 a20 a21 a22]
  rfl

/-- The output row at `(r, q)`: below column 3 the colour outputs, at column 3 the density. -/
theorem v59_at (r : Fin 131072) (q : Fin 4) :
    val_main_v59 (F := Ideal) a0 a1 a2 a3 a4 a5 a6 a7 a8 a9 a10 a11 a12 a13 a14 a15 a16 a17 a18 a19 a20 a21 a22 (ix2 r q) = rowOut (wtsOfArgs a1 a2 a3 a4 a5 a6 a7 a8 a9 a10 a11 a12 a13 a14 a15 a16 a17 a18 a19 a20 a21 a22) (fun c => a0 (ix2 r c)) q := by
  unfold val_main_v59 rowOut
  by_cases h : q.val < 3
  · rw [dif_pos h, ← v58_at a0 a1 a2 a3 a4 a5 a6 a7 a8 a9 a10 a11 a12 a13 a14 a15 a16 a17 a18 a19 a20 a21 a22 r ⟨q.val, h⟩]
    refine concatenate_pair_apply_left (t := S131072x4) (s₁ := S131072x3) (s₂ := S131072x1) 1 _ _ _
      (ix2 r q) rfl (ix2 r (⟨q.val, h⟩ : Fin 3)) ?_
    intro b
    match b with
    | ⟨0, _⟩ => rfl
    | ⟨1, _⟩ => rfl
  · have hq : q.val - 3 < 1 := by have := q.isLt; omega
    rw [dif_neg h, ← v47_at a0 a1 a2 a3 a4 a5 a6 a7 a8 a9 a10 a11 a12 a13 a14 a15 a16 a17 a18 a19 a20 a21 a22 r ⟨q.val - 3, hq⟩]
    refine concatenate_pair_apply_right (t := S131072x4) (s₁ := S131072x3) (s₂ := S131072x1) 1 _ _ _
      (ix2 r q) rfl rfl (ix2 r (⟨q.val - 3, hq⟩ : Fin 1)) ?_ ?_
    · intro b hb
      match b, hb with
      | ⟨0, _⟩, _ => rfl
      | ⟨1, _⟩, hb => exact absurd rfl hb
    · show q.val - 3 + 3 = q.val
      omega

/-- The reference's result is the specification's array: every row of the output is the row function of the
    same row of the input. -/
theorem ref_eq :
    val_main_v59 (F := Ideal) a0 a1 a2 a3 a4 a5 a6 a7 a8 a9 a10 a11 a12 a13 a14 a15 a16 a17 a18 a19 a20 a21 a22 = Cert.Nerf.G a0 (wtsOfArgs a1 a2 a3 a4 a5 a6 a7 a8 a9 a10 a11 a12 a13 a14 a15 a16 a17 a18 a19 a20 a21 a22) := by
  funext i
  obtain ⟨r, q, rfl⟩ : ∃ (r : Fin 131072) (q : Fin 4), i = ix2 r q := ⟨i 0, i 1, eq_ix2 i⟩
  rw [v59_at, G_ix2]

end Cert.Nerf.Ref

end
-- ==== Proof.lean ====
/-
  The certificate of a fused eleven-layer network kernel against its plain reference.

  Both programs map each of the 131072 input rows (63 position channels, 27 view channels) through two stacks of
  rectified dense layers of width 256 and a colour head, to three colour values and a density.  The kernel works
  on blocks of 2048 rows, rounds to a narrower float format on the way into each product, multiplies the two
  concatenated inputs piecewise (the matrix cut where the concatenation joins) and computes the density column
  and the feature columns of the 257-wide layer by two products.  On the extended reals a change of format is
  the identity, a product with a concatenation is the sum of the products with the pieces (a finite sum split
  in two), and a column of a product is the product with that column: so both programs compute, row by row, the
  one row function of Proof/Spec.lean.  No step uses more than commutativity and associativity of addition, so
  the precondition (finite inputs) is never opened.

  Proof/KPay.lean reads the kernel's body at one row of its block; Proof/KBlocks.lean and Proof/KFinal.lean read the
  blocks as rows of the argument arrays and assemble the result array; Proof/RefValue.lean reads the reference's
  operations layer by layer.  The three frames are the programs' runs with the results dropped; the idealization
  rewrote nothing, so there is nothing to preserve.
-/
import proofs.«129799_j46471546142968_2_alg».proof.Defs
import proofs.«129799_j46471546142968_2_alg».proof.Proof.Gen.Kernel
import proofs.«129799_j46471546142968_2_alg».proof.Proof.Gen.KernelIdeal
import proofs.«129799_j46471546142968_2_alg».proof.Proof.Gen.ReferenceIdeal
import proofs.«129799_j46471546142968_2_alg».proof.Proof.Gen.Pre_finite_inputs
import proofs.«129799_j46471546142968_2_alg».proof.Proof.FrameK
import proofs.«129799_j46471546142968_2_alg».proof.Proof.FrameKI
import proofs.«129799_j46471546142968_2_alg».proof.Proof.KFinal
import proofs.«129799_j46471546142968_2_alg».proof.Proof.RefValue
import proofs.«129799_j46471546142968_2_alg».proof.Proof.Gen.ReferenceIdeal.Run
import proofs.«129799_j46471546142968_2_alg».proof.Proof.Gen.ReferenceIdeal.Read
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_k : Cert.frame_Kernel := fun m ρ _ => Cert.Kernel.GenP.frame m ρ

/-- So does the kernel read on the extended reals. -/
theorem frame_ki : Cert.frame_KernelIdeal := fun m ρ _ => Cert.KernelIdeal.GenP.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's array of the argument arrays, and the arguments agree. -/
theorem algebraic : Cert.algebraic_KernelIdeal_ReferenceIdeal := by
  intro m ρ m' ρ' _ hagree
  refine ⟨fun c => Cert.Nerf.G (Cert.Nerf.arg0 m c) (Cert.Nerf.wtsOfArgs (Cert.Nerf.arg1 m c) (Cert.Nerf.arg2 m c) (Cert.Nerf.arg3 m c) (Cert.Nerf.arg4 m c) (Cert.Nerf.arg5 m c) (Cert.Nerf.arg6 m c) (Cert.Nerf.arg7 m c) (Cert.Nerf.arg8 m c) (Cert.Nerf.arg9 m c) (Cert.Nerf.arg10 m c) (Cert.Nerf.arg11 m c) (Cert.Nerf.arg12 m c) (Cert.Nerf.arg13 m c) (Cert.Nerf.arg14 m c) (Cert.Nerf.arg15 m c) (Cert.Nerf.arg16 m c) (Cert.Nerf.arg17 m c) (Cert.Nerf.arg18 m c) (Cert.Nerf.arg19 m c) (Cert.Nerf.arg20 m c) (Cert.Nerf.arg21 m c) (Cert.Nerf.arg22 m c)), Cert.Nerf.krun m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, Cert.Nerf.Ref.ref_eq]
  obtain ⟨e0, e1, e2, e3, e4, e5, e6, e7, e8, e9, e10, e11, e12, e13, e14, e15, e16, e17, e18, e19, e20, e21, e22⟩ := hagree c
  rw [e0, e1, e2, e3, e4, e5, e6, e7, e8, e9, e10, e11, e12, e13, e14, e15, e16, e17, e18, e19, e20, e21, e22]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
